-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S4096x1 : Shape := ⟨2, ![4096, 1]⟩
abbrev S256x4096 : Shape := ⟨2, ![256, 4096]⟩
abbrev S256x1 : Shape := ⟨2, ![256, 1]⟩
abbrev S256 : Shape := ⟨1, ![256]⟩
abbrev S512x4096 : Shape := ⟨2, ![512, 4096]⟩
abbrev S1x512 : Shape := ⟨2, ![1, 512]⟩
abbrev S512x512 : Shape := ⟨2, ![512, 512]⟩
abbrev S512x1 : Shape := ⟨2, ![512, 1]⟩
abbrev S512x1024 : Shape := ⟨2, ![512, 1024]⟩
abbrev S512 : Shape := ⟨1, ![512]⟩

abbrev nBuf : Space → Nat
  | .hbm => 10
  | .vmem => 18
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S4096x4096, .bf16⟩
  | .hbm, ⟨6, _⟩ => ⟨S4096x1, .f32⟩
  | .hbm, ⟨7, _⟩ => ⟨S1x4096, .f32⟩
  | .hbm, ⟨8, _⟩ => ⟨S8192x4096, .f32⟩
  | .hbm, ⟨9, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x1, .f32⟩
  | .local _ .vmem, ⟨5, _⟩ => ⟨S256x1, .f32⟩
  | .local _ .vmem, ⟨6, _⟩ => ⟨S512x4096, .f32⟩
  | .local _ .vmem, ⟨7, _⟩ => ⟨S512x4096, .f32⟩
  | .local _ .vmem, ⟨8, _⟩ => ⟨S512x4096, .bf16⟩
  | .local _ .vmem, ⟨9, _⟩ => ⟨S512x4096, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S512x4096, .bf16⟩
  | .local _ .vmem, ⟨17, _⟩ => ⟨S512x1, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S4x2048x4096_S8192x4096 : S4x2048x4096.ShapeCasts S8192x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S256x1_S256x1_0_0 : ∀ a, (![0, 0] : Fin 2 → Nat) a + S256x1.size a ≤ S256x1.size a
  h_S256x1 : 0 < S256x1.numel
  shapeCasts_S4096x1_S1x4096 : S4096x1.ShapeCasts S1x4096
  inb_S512x4096_S512x1024_0_0 : ∀ a, (![0, 0] : Fin 2 → Nat) a + S512x1024.size a ≤ S512x4096.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  inb_S512x4096_S512x1024_0_1024 : ∀ a, (![0, 1024] : Fin 2 → Nat) a + S512x1024.size a ≤ S512x4096.size a
  inb_S512x4096_S512x1024_0_2048 : ∀ a, (![0, 2048] : Fin 2 → Nat) a + S512x1024.size a ≤ S512x4096.size a
  inb_S512x4096_S512x1024_0_3072 : ∀ a, (![0, 3072] : Fin 2 → Nat) a + S512x1024.size a ≤ S512x4096.size a
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  packedbf16_S512x4096_S512x1024_0_0 : (Rect.unit (s := S512x4096) ![0, 0] S512x1024.size inb_S512x4096_S512x1024_0_0).PackedRows (EltTy.packing .bf16)
  packedbf16_S512x4096_S512x1024_0_1024 : (Rect.unit (s := S512x4096) ![0, 1024] S512x1024.size inb_S512x4096_S512x1024_0_1024).PackedRows (EltTy.packing .bf16)
  packedbf16_S512x4096_S512x1024_0_2048 : (Rect.unit (s := S512x4096) ![0, 2048] S512x1024.size inb_S512x4096_S512x1024_0_2048).PackedRows (EltTy.packing .bf16)
  packedbf16_S512x4096_S512x1024_0_3072 : (Rect.unit (s := S512x4096) ![0, 3072] S512x1024.size inb_S512x4096_S512x1024_0_3072).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S8192x4096_S4x2048x4096 : S8192x4096.ShapeCasts S4x2048x4096
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S8192x4096.size a
  hwx1_4 : ∀ i : grid1.Coords, EltTy.bits .f32 = 32 ∨ (Rect.block (s := S8192x4096) S512x512.size (cc1_transform_4 i) (hinb1_4 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S256x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4x2048x4096, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x4096, .f32⟩
  | .hbm, ⟨37, _⟩ => ⟨S4x2048x4096, .f32⟩
  | .hbm, ⟨38, _⟩ => ⟨S4x2048x4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4x2048x4096, .f32⟩
  | .hbm, ⟨43, _⟩ => ⟨S4x2048x4096, .f32⟩
  | .hbm, ⟨44, _⟩ => ⟨S_, .f32⟩
  | .hbm, ⟨45, _⟩ => ⟨S4x2048x4096, .f32⟩
  | .hbm, ⟨46, _⟩ => ⟨S4x2048x4096, .f32⟩
  | .hbm, ⟨47, _⟩ => ⟨S4x2048x4096, .f32⟩
  | .hbm, ⟨48, _⟩ => ⟨S4x2048x4096, .f32⟩
  | .hbm, ⟨49, _⟩ => ⟨S4x2048x4096, .f32⟩
  | .hbm, ⟨50, _⟩ => ⟨S1x1x4096, .f32⟩
  | .hbm, ⟨51, _⟩ => ⟨S4x2048x4096, .f32⟩
  | .hbm, ⟨52, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_cst_8 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S4x2048x4096_S4x2048_d2 : S4x2048x4096.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.K.Shared.lean ====
/-
  Both pallas_calls of the program, seen from the contents `V` the TensorCore's buffers hold when a region is
  entered: the block of each window at a grid point, that an input window's staging buffer holds exactly that
  block whether or not the pipeline fetched it at the point, the one branch condition of the second kernel
  (`program_id(1) == 0`, i.e. the point's number is a multiple of 8 on the 16 × 8 grid), and the second kernel's
  two scratch buffers (the quantised codes of the current row block of x and their per-row scales), which live
  among the scoped buffers the region's invariant owns.
-/
import proofs.«148322_j15324443312229_2_alg».proof.Proof.Gen.Kernel.Launch
import proofs.«148322_j15324443312229_2_alg».proof.Proof.Gen.Kernel.Skeleton
import proofs.«148322_j15324443312229_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w` of the row-quantisation kernel at point `t`: 256 rows of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of the product kernel at point `t`: its block of the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (where it is not
    fetched the block index has not moved since the last fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The product kernel's branch: is this the first column block of the row block? -/

/-- `program_id(1) == 0`, as the kernel computes it from the grid coordinates. -/
abbrev cond1_0 (i : grid1.Coords) : Prop := (Scalar.cmpi .ne (Scalar.extui (Scalar.cmpi .eq (BitVec.ofNat 32 (i 1).val) 0#32)) 0#32) = 1#1
/-- On the 16 × 8 grid it holds exactly at the points whose number is a multiple of 8. -/
theorem hcond1_0 : ∀ t : Fin cfg1.N, cond1_0 (grid1.coords t) ↔ t.val % 8 = 0 :=
  (by decide +kernel : ∀ t : Fin grid1.N, cond1_0 (grid1.coords t) ↔ t.val % 8 = 0)

/-- No window of the product kernel is ever idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel

/-! ## Staging memrefs and the scratch buffers -/

abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .f32 := win1_4.stage (cfg1.slots t 4)
abbrev hs1_4 (t : Fin cfg1.N) : (ms1_4 t).IsWhole := hstage1_4 ((cfg1.slots t 4).cast nbuf1_4)

/-- The codes of the current row block of x (512 × 4096, bf16). -/
abbrev scM1_0 : Memref sig .tc .vmem S512x4096 .bf16 := Memref.whole cc1_scratch0
/-- Their per-row scales (512 × 1). -/
abbrev scM1_1 : Memref sig .tc .vmem S512x1 .f32 := Memref.whole cc1_scratch1
abbrev VS1_0 : View sig .tc .vmem S512x4096 .bf16 := scM1_0.view
abbrev VS1_1 : View sig .tc .vmem S512x1 .f32 := scM1_1.view
abbrev VO1_4 : View sig .tc .vmem S512x512 .f32 := (Memref.whole cc1_stg4_0 : Memref sig .tc .vmem S512x512 .f32).view

/-- The second region's class invariant spelt out: the first kernel's six staging buffers (scoped, not this region's)
    each whole at some contents, the two scratch buffers as memrefs owned at some contents, the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.Kernel.Hand

end
-- ==== Proof.K.Run0.lean ====
/-
  The row-quantisation kernel on whole staging buffers. It loads its 256 × 4096 block, stores the block's codes
  (rounded quotients by the row's scale, clamped to [-128, 127]) into the second buffer whole and the 256 scales
  into the third whole; so after the body each output buffer holds one function of the input block.
-/
import proofs.«148322_j15324443312229_2_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev r0_a : Rect S256x4096 := Rect.unit (s := S256x4096) ![0, 0] S256x4096.size inb_S256x4096_S256x4096_0_0
abbrev r0_b : Rect S256x1 := Rect.unit (s := S256x1) ![0, 0] S256x1.size inb_S256x1_S256x1_0_0

/-- The codes' buffer after the body: its one store (the whole block) over the input block. -/
def out0_1 (x0 : Vec F S256x4096 .f32) : Vec F S256x4096 .bf16 :=
  View.canon [⟨r0_a, k0_pay2 (View.ld x0 r0_a)⟩]

/-- The scales' buffer after the body. -/
def out0_2 (x0 : Vec F S256x4096 .f32) : Vec F S256x1 .f32 :=
  View.canon [⟨r0_b, k0_pay1 (View.ld x0 r0_a)⟩]

theorem cover0_1 (p0 : Vec F S256x4096 .bf16) (y : S256x4096.Idx) :
    ∃ pc ∈ ([⟨r0_a, p0⟩] : List (View.Piece (Elt F) S256x4096 .bf16)), y ∈ pc.1.set :=
  View.cover_of_tiled [⟨r0_a, p0⟩] S256x4096.size (by rfl) y

theorem cover0_2 (p0 : Vec F S256x1 .f32) (y : S256x1.Idx) :
    ∃ pc ∈ ([⟨r0_b, p0⟩] : List (View.Piece (Elt F) S256x1 .f32)), y ∈ pc.1.set :=
  View.cover_of_tiled [⟨r0_b, p0⟩] S256x1.size (by rfl) y

set_option maxHeartbeats 1000000 in
/-- The body on whole staging memrefs, the input at contents `x0` and the outputs at anything, runs to the continuation
    holding the input as it was and the outputs at `out0_1 x0`, `out0_2 x0`. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole) (arg3 : Memref sig .tc .vmem S256x1 .f32) (harg3 : arg3.IsWhole)
    (x0 : Vec F S256x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__quantize_rows_kernel i arg1 harg1 arg2 harg2 arg3 harg3) K := by
  simp only [cc0__quantize_rows_kernel_eq_skeleton]; unfold cc0__quantize_rows_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

end Cert.Kernel.Hand

end
-- ==== Proof.K.Run1A.lean ====
/-
  The product kernel at the first column block of a row block (`program_id(1) == 0`). It quantises the 512 × 4096
  block of x — the row maxima of |x| gathered over four chunks of 1024 columns, the scale, then the codes chunk by chunk
  — into its two scratch buffers, and then forms the output block from the scratch and the other three windows. What each
  buffer ends with is found by running the body; the lists of stored pieces (last first) are the witness.
-/
import proofs.«148322_j15324443312229_2_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body when the branch is taken: inputs at their contents, the output and both scratch buffers at anything; it ends
    with the inputs as they were and the output and both scratch buffers with their pieces written. -/
noncomputable def kernelRun1_A (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : cond1_0 i)
    (x0 : Vec F S512x4096 .f32) (x1 : Vec F S512x4096 .bf16) (x2 : Vec F S1x512 .f32) (x3 : Vec F S1x512 .f32) :
    Σ' (L4 : List (View.Piece (Elt F) S512x512 .f32)) (LS0 : List (View.Piece (Elt F) S512x4096 .bf16)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__matmul_bias_kernel i arg2 harg2 arg3 harg3 arg4 harg4 arg5 harg5 arg6 harg6 arg7 harg7 arg8 harg8) K } := by
  refine ⟨?_, ?_, ?_, fun E K => ?run⟩
  case run =>
    simp only [cc1__matmul_bias_kernel_eq_skeleton]; unfold cc1__matmul_bias_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Hand

end
-- ==== Proof.K.Run1B.lean ====
/-
  The product kernel at a later column block of a row block (`program_id(1) ≠ 0`). The branch is skipped: the body only
  reads the scratch buffers — the codes and scales the first column block of this row block left there — and forms
  the output block from them and the other three windows; both scratch buffers are handed back as they were.
-/
import proofs.«148322_j15324443312229_2_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body when the branch is not taken: inputs and both scratch buffers at their contents, the output at anything; it
    ends with the inputs and the scratch as they were and the output with its pieces written. -/
noncomputable def kernelRun1_B (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : ¬cond1_0 i)
    (x0 : Vec F S512x4096 .f32) (x1 : Vec F S512x4096 .bf16) (x2 : Vec F S1x512 .f32) (x3 : Vec F S1x512 .f32)
    (xs0 : Vec F S512x4096 .bf16) (xs1 : Vec F S512x1 .f32) :
    { L4 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0 ∗ owns (c : Thread nD τ) arg8 fullShare xs1) -∗ K ⟨⟩))
          ⊢ wp frame (wpE (defs₀ (F := F)) Variants.none c none) E (cc1__matmul_bias_kernel i arg2 harg2 arg3 harg3 arg4 harg4 arg5 harg5 arg6 harg6 arg7 harg7 arg8 harg8) K } := by
  refine ⟨?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    iexists _; isplitr; · ipureintro; exact harg8.read_unread _
    iexact HS1

end Cert.Kernel.Hand

end
-- ==== Proof.K.Body.lean ====
/-
  What the two kernels leave, point by point, and the obligation each body owes the pipeline.

  The row-quantisation kernel keeps nothing between points: after the body at a point each output buffer holds a function
  of the point's input block. The product kernel carries its two scratch buffers along a row block: at the first of the
  eight column blocks (`t % 8 = 0`) it fills them from the block of x, and at the seven others it hands them on untouched;
  so what they hold after point `t` is defined by recursion on `t`, and the region's invariant after a point owns them at
  exactly those contents.
-/
import proofs.«148322_j15324443312229_2_alg».proof.Proof.K.Run0
import proofs.«148322_j15324443312229_2_alg».proof.Proof.K.Run1A
import proofs.«148322_j15324443312229_2_alg».proof.Proof.K.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The row-quantisation kernel -/

/-- Its proof data on core `c`: the arrays as the region finds them; after the body the input buffer at its block and the
    two output buffers at the codes and the scales of that block; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # The product kernel -/

/-! ## What each case leaves -/

theorem cover1_A_4 (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : cond1_0 i) (x0 : Vec F S512x4096 .f32) (x1 : Vec F S512x4096 .bf16) (x2 : Vec F S1x512 .f32) (x3 : Vec F S1x512 .f32) (y : S512x512.Idx) :
    ∃ pc ∈ (kernelRun1_A c i arg2 harg2 arg3 harg3 arg4 harg4 arg5 harg5 arg6 harg6 arg7 harg7 arg8 harg8 hc0 x0 x1 x2 x3).1, y ∈ pc.1.set :=
  View.cover_of_tiledL (kernelRun1_A c i arg2 harg2 arg3 harg3 arg4 harg4 arg5 harg5 arg6 harg6 arg7 harg7 arg8 harg8 hc0 x0 x1 x2 x3).1 S512x512.size (by sl_kernel_rfl) y
theorem scover1_A_0 (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : cond1_0 i) (x0 : Vec F S512x4096 .f32) (x1 : Vec F S512x4096 .bf16) (x2 : Vec F S1x512 .f32) (x3 : Vec F S1x512 .f32) (y : S512x4096.Idx) :
    ∃ pc ∈ (kernelRun1_A c i arg2 harg2 arg3 harg3 arg4 harg4 arg5 harg5 arg6 harg6 arg7 harg7 arg8 harg8 hc0 x0 x1 x2 x3).2.1, y ∈ pc.1.set :=
  View.cover_of_tiledL (kernelRun1_A c i arg2 harg2 arg3 harg3 arg4 harg4 arg5 harg5 arg6 harg6 arg7 harg7 arg8 harg8 hc0 x0 x1 x2 x3).2.1 S512x1024.size (by sl_kernel_rfl) y
theorem scover1_A_1 (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : cond1_0 i) (x0 : Vec F S512x4096 .f32) (x1 : Vec F S512x4096 .bf16) (x2 : Vec F S1x512 .f32) (x3 : Vec F S1x512 .f32) (y : S512x1.Idx) :
    ∃ pc ∈ (kernelRun1_A c i arg2 harg2 arg3 harg3 arg4 harg4 arg5 harg5 arg6 harg6 arg7 harg7 arg8 harg8 hc0 x0 x1 x2 x3).2.2.1, y ∈ pc.1.set :=
  View.cover_of_tiledL (kernelRun1_A c i arg2 harg2 arg3 harg3 arg4 harg4 arg5 harg5 arg6 harg6 arg7 harg7 arg8 harg8 hc0 x0 x1 x2 x3).2.2.1 S512x1.size (by sl_kernel_rfl) y
theorem cover1_B_4 (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : ¬cond1_0 i) (x0 : Vec F S512x4096 .f32) (x1 : Vec F S512x4096 .bf16) (x2 : Vec F S1x512 .f32) (x3 : Vec F S1x512 .f32) (xs0 : Vec F S512x4096 .bf16) (xs1 : Vec F S512x1 .f32) (y : S512x512.Idx) :
    ∃ pc ∈ (kernelRun1_B c i arg2 harg2 arg3 harg3 arg4 harg4 arg5 harg5 arg6 harg6 arg7 harg7 arg8 harg8 hc0 x0 x1 x2 x3 xs0 xs1).1, y ∈ pc.1.set :=
  View.cover_of_tiledL (kernelRun1_B c i arg2 harg2 arg3 harg3 arg4 harg4 arg5 harg5 arg6 harg6 arg7 harg7 arg8 harg8 hc0 x0 x1 x2 x3 xs0 xs1).1 S512x512.size (by sl_kernel_rfl) y

/-- The output block the first column block's body leaves: its pieces read back. -/
def out1_A_4 (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : cond1_0 i) (x0 : Vec F S512x4096 .f32) (x1 : Vec F S512x4096 .bf16) (x2 : Vec F S1x512 .f32) (x3 : Vec F S1x512 .f32) : Vec F S512x512 .f32 :=
  VO1_4.read (Elt F) (VO1_4.writes (Elt F) VO1_4.junk (kernelRun1_A c i arg2 harg2 arg3 harg3 arg4 harg4 arg5 harg5 arg6 harg6 arg7 harg7 arg8 harg8 hc0 x0 x1 x2 x3).1)
/-- The codes it leaves in the first scratch buffer. -/
def sout1_A_0 (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : cond1_0 i) (x0 : Vec F S512x4096 .f32) (x1 : Vec F S512x4096 .bf16) (x2 : Vec F S1x512 .f32) (x3 : Vec F S1x512 .f32) : Vec F S512x4096 .bf16 :=
  VS1_0.read (Elt F) (VS1_0.writes (Elt F) VS1_0.junk (kernelRun1_A c i arg2 harg2 arg3 harg3 arg4 harg4 arg5 harg5 arg6 harg6 arg7 harg7 arg8 harg8 hc0 x0 x1 x2 x3).2.1)
/-- The scales it leaves in the second. -/
def sout1_A_1 (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : cond1_0 i) (x0 : Vec F S512x4096 .f32) (x1 : Vec F S512x4096 .bf16) (x2 : Vec F S1x512 .f32) (x3 : Vec F S1x512 .f32) : Vec F S512x1 .f32 :=
  VS1_1.read (Elt F) (VS1_1.writes (Elt F) VS1_1.junk (kernelRun1_A c i arg2 harg2 arg3 harg3 arg4 harg4 arg5 harg5 arg6 harg6 arg7 harg7 arg8 harg8 hc0 x0 x1 x2 x3).2.2.1)
/-- The output block a later column block's body leaves, from the scratch contents it finds. -/
def out1_B_4 (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : ¬cond1_0 i) (x0 : Vec F S512x4096 .f32) (x1 : Vec F S512x4096 .bf16) (x2 : Vec F S1x512 .f32) (x3 : Vec F S1x512 .f32) (xs0 : Vec F S512x4096 .bf16) (xs1 : Vec F S512x1 .f32) : Vec F S512x512 .f32 :=
  VO1_4.read (Elt F) (VO1_4.writes (Elt F) VO1_4.junk (kernelRun1_B c i arg2 harg2 arg3 harg3 arg4 harg4 arg5 harg5 arg6 harg6 arg7 harg7 arg8 harg8 hc0 x0 x1 x2 x3 xs0 xs1).1)

/-! ## Point by point -/

/-- After the body at point `n`: the output block, the codes in scratch, the scales in scratch. At a multiple of 8 the
    first case's, from the point's blocks alone; otherwise the second case's output from what the point before left in
    scratch, and the scratch as the point before left it. -/
def outsAt1 (c : Dev nD) : (n : ℕ) → n < cfg1.N → Vec F S512x512 .f32 × Vec F S512x4096 .bf16 × Vec F S512x1 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
        sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2,
        (outsAt1 c n (Nat.lt_of_succ_lt hn)).2.1, (outsAt1 c n (Nat.lt_of_succ_lt hn)).2.2)

theorem outsAt1_A (c : Dev nD) (t : Fin cfg1.N) (h0 : t.val % 8 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t),
      sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t),
      sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
      (outsAt1 V c (t.val - 1) (Nat.lt_of_le_of_lt (Nat.sub_le _ _) t.isLt)).2.1, (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region's invariant before position `n`: the class's before the first point; afterwards the first kernel's staging
    buffers at anything, both scratch buffers at what the point before left, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-- The product kernel's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 8 = 0
  · rw [outsAt1_A V c t h0]
    unfold out1_A_4 sout1_A_0 sout1_A_1; (try dsimp only)
    by_cases hz : t.val = 0
    · rw [PhiS_castSucc V c t, PhiS_zero V c _ _ hz, PhiA1_eq]
      iintro ⟨⟨⟨Ha, Hb, Hc, Hd, He, Hf, HS0, HS1⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ ((hcond1_0 t).mpr h0) (iblk1 V c 0 t) (iblk1 V c 1 t) (iblk1 V c 2 t) (iblk1 V c 3 t)).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [Ha Hb Hc Hd He Hf HS0 HS1 Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          isplitl [HS0]
          · unfold owns; iexists _; isplitr
            swap; · iexact HS0
            ipureintro; exact View.read_writes_of_cover _ _ _ _ _ (scover1_A_0 c _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _ _ _)
    · rw [PhiS_castSucc V c t, PhiS_pos V c _ _ hz]
      iintro ⟨⟨⟨Ha, Hb, Hc, Hd, He, Hf, HS0, HS1⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ ((hcond1_0 t).mpr h0) (iblk1 V c 0 t) (iblk1 V c 1 t) (iblk1 V c 2 t) (iblk1 V c 3 t)).2.2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      iintro ⟨H0, H1, H2, H3, ⟨%e4, H4⟩, ⟨%es0, HS0⟩, ⟨%es1, HS1⟩⟩
      isplitl [Ha Hb Hc Hd He Hf HS0 HS1 Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          isplitl [HS0]
          · unfold owns; iexists _; isplitr
            swap; · iexact HS0
            ipureintro; exact View.read_writes_of_cover _ _ _ _ _ (scover1_A_0 c _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _ _ _)
  · rw [outsAt1_B V c t h0]
    unfold out1_B_4; (try dsimp only)
    have hz : t.val ≠ 0 := fun h => h0 (by rw [h])
    rw [PhiS_castSucc V c t, PhiS_pos V c _ _ hz]
    iintro ⟨⟨⟨Ha, Hb, Hc, Hd, He, Hf, HS0, HS1⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) _ _).2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, HS0, HS1⟩
    isplitl [Ha Hb Hc Hd He Hf HS0 HS1 Hg]
    · isplitr [Hg]
      · isplitl [Ha]; · iexact Ha
        isplitl [Hb]; · iexact Hb
        isplitl [Hc]; · iexact Hc
        isplitl [Hd]; · iexact Hd
        isplitl [He]; · iexact He
        isplitl [Hf]; · iexact Hf
        isplitl [HS0]; · iexact HS0
        iexact HS1
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨Ha, Hb, Hc, Hd, He, Hf, HS0, HS1⟩, Hg⟩
  isplitl [Ha Hb Hc Hd He Hf HS0 HS1]
  · isplitl [Ha]; · iexact Ha
    isplitl [Hb]; · iexact Hb
    isplitl [Hc]; · iexact Hc
    isplitl [Hd]; · iexact Hd
    isplitl [He]; · iexact He
    isplitl [Hf]; · iexact Hf
    isplitl [HS0]; · iexists _; iexact HS0
    iexists _; iexact HS1
  iexact Hg

end Regions

end Cert.Kernel.Hand

end
-- ==== Proof.K.Frame.lean ====
/-
  The whole program as a run: two reshapes, the row-quantisation region, a reshape of the scales, the product region,
  a reshape of the result. The contents of every unscoped buffer at each boundary are a fold from the launch memory —
  a host stretch applies its operations, a region replaces its windows' arrays by what its write-backs leave — and the
  run ends with every unscoped buffer at the last fold. Each region is entered by splitting its arrays out of the
  unscoped buffers and left by putting them back; the product region's invariant takes the scratch buffers in at anything
  and gives them back at anything.
-/
import proofs.«148322_j15324443312229_2_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: the codes' and scales' arrays at what its write-backs leave, the rest as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region: the product's array at what its write-backs leave, the rest as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The row-quantisation region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product region: entered from every unscoped buffer at `W3`, left at `W4`; its invariant starts as the class's
    and ends, the scratch contents forgotten, as the class's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (pdats m ρ 1 c).Φ (Fin.last _) ⊢ (Pipeline.ΦA spec1 c : sProp 𝕄) := hout1 (V3 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting,
    and every final state holds every unscoped buffer of every core at the last fold `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.Kernel.Hand

end
-- ==== Proof.K.Args.lean ====
/-
  The run read at the buffers the claims speak of. No host stretch writes an argument and no region's write-backs touch
  one (the weight matrix is an input window of the first region: what the pipeline leaves in an input's array is what
  it found there), so each argument's buffer at the last boundary holds its launch contents; and the result buffer
  holds the last boundary's contents of it.
-/
import proofs.«148322_j15324443312229_2_alg».proof.Proof.K.Frame
import proofs.«148322_j15324443312229_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W5_main_arg0 (c : Dev nD) : W5 m ρ c (Proc.devRef .tc main_arg0) = m ((c : Thread nD τ).loc main_arg0) :=
  (StableHlo.after_of_writes_sub hostOps2 (W4 m ρ c) hostOps2_writes (r := main_arg0) (by decide)).trans <|
  (W4_of_ne m ρ c main_arg0 (by decide)).trans <|
  (StableHlo.after_of_writes_sub hostOps1 (W2 m ρ c) hostOps1_writes (r := main_arg0) (by decide)).trans <|
  (W2_of_ne m ρ c main_arg0 (by decide)).trans <|
  (StableHlo.after_of_writes_sub hostOps0 (W0 m ρ c) hostOps0_writes (r := main_arg0) (by decide)).trans rfl

theorem W5_main_arg2 (c : Dev nD) : W5 m ρ c (Proc.devRef .tc main_arg2) = m ((c : Thread nD τ).loc main_arg2) :=
  (StableHlo.after_of_writes_sub hostOps2 (W4 m ρ c) hostOps2_writes (r := main_arg2) (by decide)).trans <|
  (W4_of_ne m ρ c main_arg2 (by decide)).trans <|
  (StableHlo.after_of_writes_sub hostOps1 (W2 m ρ c) hostOps1_writes (r := main_arg2) (by decide)).trans <|
  (W2_of_ne m ρ c main_arg2 (by decide)).trans <|
  (StableHlo.after_of_writes_sub hostOps0 (W0 m ρ c) hostOps0_writes (r := main_arg2) (by decide)).trans rfl

theorem W5_main_arg1 (c : Dev nD) : W5 m ρ c (Proc.devRef .tc main_arg1) = m ((c : Thread nD τ).loc main_arg1) :=
  (StableHlo.after_of_writes_sub hostOps2 (W4 m ρ c) hostOps2_writes (r := main_arg1) (by decide)).trans <|
  (W4_of_ne m ρ c main_arg1 (by decide)).trans <|
  (StableHlo.after_of_writes_sub hostOps1 (W2 m ρ c) hostOps1_writes (r := main_arg1) (by decide)).trans <|
  ((W2_arr m ρ c 0).trans (((dat0 (V1 m ρ) c).arrAt_in 0 rfl _).trans (A_eq0 (V1 m ρ) c 0))).trans <|
  (StableHlo.after_of_writes_sub hostOps0 (W0 m ρ c) hostOps0_writes (r := main_arg1) (by decide)).trans rfl

/-- The frame: the program runs to the end, nothing faulting, and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

/-- The run with the result named: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v5 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.Kernel.Hand

end
-- ==== Proof.KI.Shared.lean ====
/-
  Both pallas_calls of the program, seen from the contents `V` the TensorCore's buffers hold when a region is
  entered: the block of each window at a grid point, that an input window's staging buffer holds exactly that
  block whether or not the pipeline fetched it at the point, the one branch condition of the second kernel
  (`program_id(1) == 0`, i.e. the point's number is a multiple of 8 on the 16 × 8 grid), and the second kernel's
  two scratch buffers (the quantised codes of the current row block of x and their per-row scales), which live
  among the scoped buffers the region's invariant owns.
-/
import proofs.«148322_j15324443312229_2_alg».proof.Proof.Gen.KernelIdeal.Launch
import proofs.«148322_j15324443312229_2_alg».proof.Proof.Gen.KernelIdeal.Skeleton
import proofs.«148322_j15324443312229_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w` of the row-quantisation kernel at point `t`: 256 rows of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of the product kernel at point `t`: its block of the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (where it is not
    fetched the block index has not moved since the last fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The product kernel's branch: is this the first column block of the row block? -/

/-- `program_id(1) == 0`, as the kernel computes it from the grid coordinates. -/
abbrev cond1_0 (i : grid1.Coords) : Prop := (Scalar.cmpi .ne (Scalar.extui (Scalar.cmpi .eq (BitVec.ofNat 32 (i 1).val) 0#32)) 0#32) = 1#1
/-- On the 16 × 8 grid it holds exactly at the points whose number is a multiple of 8. -/
theorem hcond1_0 : ∀ t : Fin cfg1.N, cond1_0 (grid1.coords t) ↔ t.val % 8 = 0 :=
  (by decide +kernel : ∀ t : Fin grid1.N, cond1_0 (grid1.coords t) ↔ t.val % 8 = 0)

/-- No window of the product kernel is ever idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel

/-! ## Staging memrefs and the scratch buffers -/

abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .f32 := win1_4.stage (cfg1.slots t 4)
abbrev hs1_4 (t : Fin cfg1.N) : (ms1_4 t).IsWhole := hstage1_4 ((cfg1.slots t 4).cast nbuf1_4)

/-- The codes of the current row block of x (512 × 4096, bf16). -/
abbrev scM1_0 : Memref sig .tc .vmem S512x4096 .bf16 := Memref.whole cc1_scratch0
/-- Their per-row scales (512 × 1). -/
abbrev scM1_1 : Memref sig .tc .vmem S512x1 .f32 := Memref.whole cc1_scratch1
abbrev VS1_0 : View sig .tc .vmem S512x4096 .bf16 := scM1_0.view
abbrev VS1_1 : View sig .tc .vmem S512x1 .f32 := scM1_1.view
abbrev VO1_4 : View sig .tc .vmem S512x512 .f32 := (Memref.whole cc1_stg4_0 : Memref sig .tc .vmem S512x512 .f32).view

/-- The second region's class invariant spelt out: the first kernel's six staging buffers (scoped, not this region's)
    each whole at some contents, the two scratch buffers as memrefs owned at some contents, the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Hand

end
-- ==== Proof.KI.Run0.lean ====
/-
  The row-quantisation kernel on whole staging buffers. It loads its 256 × 4096 block, stores the block's codes
  (rounded quotients by the row's scale, clamped to [-128, 127]) into the second buffer whole and the 256 scales
  into the third whole; so after the body each output buffer holds one function of the input block.
-/
import proofs.«148322_j15324443312229_2_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev r0_a : Rect S256x4096 := Rect.unit (s := S256x4096) ![0, 0] S256x4096.size inb_S256x4096_S256x4096_0_0
abbrev r0_b : Rect S256x1 := Rect.unit (s := S256x1) ![0, 0] S256x1.size inb_S256x1_S256x1_0_0

/-- The codes' buffer after the body: its one store (the whole block) over the input block. -/
def out0_1 (x0 : Vec F S256x4096 .f32) : Vec F S256x4096 .bf16 :=
  View.canon [⟨r0_a, k0_pay2 (View.ld x0 r0_a)⟩]

/-- The scales' buffer after the body. -/
def out0_2 (x0 : Vec F S256x4096 .f32) : Vec F S256x1 .f32 :=
  View.canon [⟨r0_b, k0_pay1 (View.ld x0 r0_a)⟩]

theorem cover0_1 (p0 : Vec F S256x4096 .bf16) (y : S256x4096.Idx) :
    ∃ pc ∈ ([⟨r0_a, p0⟩] : List (View.Piece (Elt F) S256x4096 .bf16)), y ∈ pc.1.set :=
  View.cover_of_tiled [⟨r0_a, p0⟩] S256x4096.size (by rfl) y

theorem cover0_2 (p0 : Vec F S256x1 .f32) (y : S256x1.Idx) :
    ∃ pc ∈ ([⟨r0_b, p0⟩] : List (View.Piece (Elt F) S256x1 .f32)), y ∈ pc.1.set :=
  View.cover_of_tiled [⟨r0_b, p0⟩] S256x1.size (by rfl) y

set_option maxHeartbeats 1000000 in
/-- The body on whole staging memrefs, the input at contents `x0` and the outputs at anything, runs to the continuation
    holding the input as it was and the outputs at `out0_1 x0`, `out0_2 x0`. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole) (arg3 : Memref sig .tc .vmem S256x1 .f32) (harg3 : arg3.IsWhole)
    (x0 : Vec F S256x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__quantize_rows_kernel i arg1 harg1 arg2 harg2 arg3 harg3) K := by
  simp only [cc0__quantize_rows_kernel_eq_skeleton]; unfold cc0__quantize_rows_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

end Cert.KernelIdeal.Hand

end
-- ==== Proof.KI.Run1A.lean ====
/-
  The product kernel at the first column block of a row block (`program_id(1) == 0`). It quantises the 512 × 4096
  block of x — the row maxima of |x| gathered over four chunks of 1024 columns, the scale, then the codes chunk by chunk
  — into its two scratch buffers, and then forms the output block from the scratch and the other three windows. What each
  buffer ends with is found by running the body; the lists of stored pieces (last first) are the witness.
-/
import proofs.«148322_j15324443312229_2_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body when the branch is taken: inputs at their contents, the output and both scratch buffers at anything; it ends
    with the inputs as they were and the output and both scratch buffers with their pieces written. -/
noncomputable def kernelRun1_A (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : cond1_0 i)
    (x0 : Vec F S512x4096 .f32) (x1 : Vec F S512x4096 .bf16) (x2 : Vec F S1x512 .f32) (x3 : Vec F S1x512 .f32) :
    Σ' (L4 : List (View.Piece (Elt F) S512x512 .f32)) (LS0 : List (View.Piece (Elt F) S512x4096 .bf16)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__matmul_bias_kernel i arg2 harg2 arg3 harg3 arg4 harg4 arg5 harg5 arg6 harg6 arg7 harg7 arg8 harg8) K } := by
  refine ⟨?_, ?_, ?_, fun E K => ?run⟩
  case run =>
    simp only [cc1__matmul_bias_kernel_eq_skeleton]; unfold cc1__matmul_bias_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Hand

end
-- ==== Proof.KI.Run1B.lean ====
/-
  The product kernel at a later column block of a row block (`program_id(1) ≠ 0`). The branch is skipped: the body only
  reads the scratch buffers — the codes and scales the first column block of this row block left there — and forms
  the output block from them and the other three windows; both scratch buffers are handed back as they were.
-/
import proofs.«148322_j15324443312229_2_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body when the branch is not taken: inputs and both scratch buffers at their contents, the output at anything; it
    ends with the inputs and the scratch as they were and the output with its pieces written. -/
noncomputable def kernelRun1_B (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : ¬cond1_0 i)
    (x0 : Vec F S512x4096 .f32) (x1 : Vec F S512x4096 .bf16) (x2 : Vec F S1x512 .f32) (x3 : Vec F S1x512 .f32)
    (xs0 : Vec F S512x4096 .bf16) (xs1 : Vec F S512x1 .f32) :
    { L4 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0 ∗ owns (c : Thread nD τ) arg8 fullShare xs1) -∗ K ⟨⟩))
          ⊢ wp frame (wpE (defs₀ (F := F)) Variants.none c none) E (cc1__matmul_bias_kernel i arg2 harg2 arg3 harg3 arg4 harg4 arg5 harg5 arg6 harg6 arg7 harg7 arg8 harg8) K } := by
  refine ⟨?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    iexists _; isplitr; · ipureintro; exact harg8.read_unread _
    iexact HS1

end Cert.KernelIdeal.Hand

end
-- ==== Proof.KI.Body.lean ====
/-
  What the two kernels leave, point by point, and the obligation each body owes the pipeline.

  The row-quantisation kernel keeps nothing between points: after the body at a point each output buffer holds a function
  of the point's input block. The product kernel carries its two scratch buffers along a row block: at the first of the
  eight column blocks (`t % 8 = 0`) it fills them from the block of x, and at the seven others it hands them on untouched;
  so what they hold after point `t` is defined by recursion on `t`, and the region's invariant after a point owns them at
  exactly those contents.
-/
import proofs.«148322_j15324443312229_2_alg».proof.Proof.KI.Run0
import proofs.«148322_j15324443312229_2_alg».proof.Proof.KI.Run1A
import proofs.«148322_j15324443312229_2_alg».proof.Proof.KI.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The row-quantisation kernel -/

/-- Its proof data on core `c`: the arrays as the region finds them; after the body the input buffer at its block and the
    two output buffers at the codes and the scales of that block; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # The product kernel -/

/-! ## What each case leaves -/

theorem cover1_A_4 (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : cond1_0 i) (x0 : Vec F S512x4096 .f32) (x1 : Vec F S512x4096 .bf16) (x2 : Vec F S1x512 .f32) (x3 : Vec F S1x512 .f32) (y : S512x512.Idx) :
    ∃ pc ∈ (kernelRun1_A c i arg2 harg2 arg3 harg3 arg4 harg4 arg5 harg5 arg6 harg6 arg7 harg7 arg8 harg8 hc0 x0 x1 x2 x3).1, y ∈ pc.1.set :=
  View.cover_of_tiledL (kernelRun1_A c i arg2 harg2 arg3 harg3 arg4 harg4 arg5 harg5 arg6 harg6 arg7 harg7 arg8 harg8 hc0 x0 x1 x2 x3).1 S512x512.size (by sl_kernel_rfl) y
theorem scover1_A_0 (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : cond1_0 i) (x0 : Vec F S512x4096 .f32) (x1 : Vec F S512x4096 .bf16) (x2 : Vec F S1x512 .f32) (x3 : Vec F S1x512 .f32) (y : S512x4096.Idx) :
    ∃ pc ∈ (kernelRun1_A c i arg2 harg2 arg3 harg3 arg4 harg4 arg5 harg5 arg6 harg6 arg7 harg7 arg8 harg8 hc0 x0 x1 x2 x3).2.1, y ∈ pc.1.set :=
  View.cover_of_tiledL (kernelRun1_A c i arg2 harg2 arg3 harg3 arg4 harg4 arg5 harg5 arg6 harg6 arg7 harg7 arg8 harg8 hc0 x0 x1 x2 x3).2.1 S512x1024.size (by sl_kernel_rfl) y
theorem scover1_A_1 (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : cond1_0 i) (x0 : Vec F S512x4096 .f32) (x1 : Vec F S512x4096 .bf16) (x2 : Vec F S1x512 .f32) (x3 : Vec F S1x512 .f32) (y : S512x1.Idx) :
    ∃ pc ∈ (kernelRun1_A c i arg2 harg2 arg3 harg3 arg4 harg4 arg5 harg5 arg6 harg6 arg7 harg7 arg8 harg8 hc0 x0 x1 x2 x3).2.2.1, y ∈ pc.1.set :=
  View.cover_of_tiledL (kernelRun1_A c i arg2 harg2 arg3 harg3 arg4 harg4 arg5 harg5 arg6 harg6 arg7 harg7 arg8 harg8 hc0 x0 x1 x2 x3).2.2.1 S512x1.size (by sl_kernel_rfl) y
theorem cover1_B_4 (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : ¬cond1_0 i) (x0 : Vec F S512x4096 .f32) (x1 : Vec F S512x4096 .bf16) (x2 : Vec F S1x512 .f32) (x3 : Vec F S1x512 .f32) (xs0 : Vec F S512x4096 .bf16) (xs1 : Vec F S512x1 .f32) (y : S512x512.Idx) :
    ∃ pc ∈ (kernelRun1_B c i arg2 harg2 arg3 harg3 arg4 harg4 arg5 harg5 arg6 harg6 arg7 harg7 arg8 harg8 hc0 x0 x1 x2 x3 xs0 xs1).1, y ∈ pc.1.set :=
  View.cover_of_tiledL (kernelRun1_B c i arg2 harg2 arg3 harg3 arg4 harg4 arg5 harg5 arg6 harg6 arg7 harg7 arg8 harg8 hc0 x0 x1 x2 x3 xs0 xs1).1 S512x512.size (by sl_kernel_rfl) y

/-- The output block the first column block's body leaves: its pieces read back. -/
def out1_A_4 (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : cond1_0 i) (x0 : Vec F S512x4096 .f32) (x1 : Vec F S512x4096 .bf16) (x2 : Vec F S1x512 .f32) (x3 : Vec F S1x512 .f32) : Vec F S512x512 .f32 :=
  VO1_4.read (Elt F) (VO1_4.writes (Elt F) VO1_4.junk (kernelRun1_A c i arg2 harg2 arg3 harg3 arg4 harg4 arg5 harg5 arg6 harg6 arg7 harg7 arg8 harg8 hc0 x0 x1 x2 x3).1)
/-- The codes it leaves in the first scratch buffer. -/
def sout1_A_0 (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : cond1_0 i) (x0 : Vec F S512x4096 .f32) (x1 : Vec F S512x4096 .bf16) (x2 : Vec F S1x512 .f32) (x3 : Vec F S1x512 .f32) : Vec F S512x4096 .bf16 :=
  VS1_0.read (Elt F) (VS1_0.writes (Elt F) VS1_0.junk (kernelRun1_A c i arg2 harg2 arg3 harg3 arg4 harg4 arg5 harg5 arg6 harg6 arg7 harg7 arg8 harg8 hc0 x0 x1 x2 x3).2.1)
/-- The scales it leaves in the second. -/
def sout1_A_1 (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : cond1_0 i) (x0 : Vec F S512x4096 .f32) (x1 : Vec F S512x4096 .bf16) (x2 : Vec F S1x512 .f32) (x3 : Vec F S1x512 .f32) : Vec F S512x1 .f32 :=
  VS1_1.read (Elt F) (VS1_1.writes (Elt F) VS1_1.junk (kernelRun1_A c i arg2 harg2 arg3 harg3 arg4 harg4 arg5 harg5 arg6 harg6 arg7 harg7 arg8 harg8 hc0 x0 x1 x2 x3).2.2.1)
/-- The output block a later column block's body leaves, from the scratch contents it finds. -/
def out1_B_4 (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : ¬cond1_0 i) (x0 : Vec F S512x4096 .f32) (x1 : Vec F S512x4096 .bf16) (x2 : Vec F S1x512 .f32) (x3 : Vec F S1x512 .f32) (xs0 : Vec F S512x4096 .bf16) (xs1 : Vec F S512x1 .f32) : Vec F S512x512 .f32 :=
  VO1_4.read (Elt F) (VO1_4.writes (Elt F) VO1_4.junk (kernelRun1_B c i arg2 harg2 arg3 harg3 arg4 harg4 arg5 harg5 arg6 harg6 arg7 harg7 arg8 harg8 hc0 x0 x1 x2 x3 xs0 xs1).1)

/-! ## Point by point -/

/-- After the body at point `n`: the output block, the codes in scratch, the scales in scratch. At a multiple of 8 the
    first case's, from the point's blocks alone; otherwise the second case's output from what the point before left in
    scratch, and the scratch as the point before left it. -/
def outsAt1 (c : Dev nD) : (n : ℕ) → n < cfg1.N → Vec F S512x512 .f32 × Vec F S512x4096 .bf16 × Vec F S512x1 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
        sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2,
        (outsAt1 c n (Nat.lt_of_succ_lt hn)).2.1, (outsAt1 c n (Nat.lt_of_succ_lt hn)).2.2)

theorem outsAt1_A (c : Dev nD) (t : Fin cfg1.N) (h0 : t.val % 8 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t),
      sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t),
      sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
      (outsAt1 V c (t.val - 1) (Nat.lt_of_le_of_lt (Nat.sub_le _ _) t.isLt)).2.1, (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region's invariant before position `n`: the class's before the first point; afterwards the first kernel's staging
    buffers at anything, both scratch buffers at what the point before left, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-- The product kernel's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 8 = 0
  · rw [outsAt1_A V c t h0]
    unfold out1_A_4 sout1_A_0 sout1_A_1; (try dsimp only)
    by_cases hz : t.val = 0
    · rw [PhiS_castSucc V c t, PhiS_zero V c _ _ hz, PhiA1_eq]
      iintro ⟨⟨⟨Ha, Hb, Hc, Hd, He, Hf, HS0, HS1⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ ((hcond1_0 t).mpr h0) (iblk1 V c 0 t) (iblk1 V c 1 t) (iblk1 V c 2 t) (iblk1 V c 3 t)).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [Ha Hb Hc Hd He Hf HS0 HS1 Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          isplitl [HS0]
          · unfold owns; iexists _; isplitr
            swap; · iexact HS0
            ipureintro; exact View.read_writes_of_cover _ _ _ _ _ (scover1_A_0 c _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _ _ _)
    · rw [PhiS_castSucc V c t, PhiS_pos V c _ _ hz]
      iintro ⟨⟨⟨Ha, Hb, Hc, Hd, He, Hf, HS0, HS1⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ ((hcond1_0 t).mpr h0) (iblk1 V c 0 t) (iblk1 V c 1 t) (iblk1 V c 2 t) (iblk1 V c 3 t)).2.2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      iintro ⟨H0, H1, H2, H3, ⟨%e4, H4⟩, ⟨%es0, HS0⟩, ⟨%es1, HS1⟩⟩
      isplitl [Ha Hb Hc Hd He Hf HS0 HS1 Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          isplitl [HS0]
          · unfold owns; iexists _; isplitr
            swap; · iexact HS0
            ipureintro; exact View.read_writes_of_cover _ _ _ _ _ (scover1_A_0 c _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _ _ _)
  · rw [outsAt1_B V c t h0]
    unfold out1_B_4; (try dsimp only)
    have hz : t.val ≠ 0 := fun h => h0 (by rw [h])
    rw [PhiS_castSucc V c t, PhiS_pos V c _ _ hz]
    iintro ⟨⟨⟨Ha, Hb, Hc, Hd, He, Hf, HS0, HS1⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) _ _).2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, HS0, HS1⟩
    isplitl [Ha Hb Hc Hd He Hf HS0 HS1 Hg]
    · isplitr [Hg]
      · isplitl [Ha]; · iexact Ha
        isplitl [Hb]; · iexact Hb
        isplitl [Hc]; · iexact Hc
        isplitl [Hd]; · iexact Hd
        isplitl [He]; · iexact He
        isplitl [Hf]; · iexact Hf
        isplitl [HS0]; · iexact HS0
        iexact HS1
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨Ha, Hb, Hc, Hd, He, Hf, HS0, HS1⟩, Hg⟩
  isplitl [Ha Hb Hc Hd He Hf HS0 HS1]
  · isplitl [Ha]; · iexact Ha
    isplitl [Hb]; · iexact Hb
    isplitl [Hc]; · iexact Hc
    isplitl [Hd]; · iexact Hd
    isplitl [He]; · iexact He
    isplitl [Hf]; · iexact Hf
    isplitl [HS0]; · iexists _; iexact HS0
    iexists _; iexact HS1
  iexact Hg

end Regions

end Cert.KernelIdeal.Hand

end
-- ==== Proof.KI.Frame.lean ====
/-
  The whole program as a run: two reshapes, the row-quantisation region, a reshape of the scales, the product region,
  a reshape of the result. The contents of every unscoped buffer at each boundary are a fold from the launch memory —
  a host stretch applies its operations, a region replaces its windows' arrays by what its write-backs leave — and the
  run ends with every unscoped buffer at the last fold. Each region is entered by splitting its arrays out of the
  unscoped buffers and left by putting them back; the product region's invariant takes the scratch buffers in at anything
  and gives them back at anything.
-/
import proofs.«148322_j15324443312229_2_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: the codes' and scales' arrays at what its write-backs leave, the rest as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region: the product's array at what its write-backs leave, the rest as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The row-quantisation region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product region: entered from every unscoped buffer at `W3`, left at `W4`; its invariant starts as the class's
    and ends, the scratch contents forgotten, as the class's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (pdats m ρ 1 c).Φ (Fin.last _) ⊢ (Pipeline.ΦA spec1 c : sProp 𝕄) := hout1 (V3 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting,
    and every final state holds every unscoped buffer of every core at the last fold `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.KernelIdeal.Hand

end
-- ==== Proof.KI.Args.lean ====
/-
  The run read at the buffers the claims speak of. No host stretch writes an argument and no region's write-backs touch
  one (the weight matrix is an input window of the first region: what the pipeline leaves in an input's array is what
  it found there), so each argument's buffer at the last boundary holds its launch contents; and the result buffer
  holds the last boundary's contents of it.
-/
import proofs.«148322_j15324443312229_2_alg».proof.Proof.KI.Frame
import proofs.«148322_j15324443312229_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W5_main_arg0 (c : Dev nD) : W5 m ρ c (Proc.devRef .tc main_arg0) = m ((c : Thread nD τ).loc main_arg0) :=
  (StableHlo.after_of_writes_sub hostOps2 (W4 m ρ c) hostOps2_writes (r := main_arg0) (by decide)).trans <|
  (W4_of_ne m ρ c main_arg0 (by decide)).trans <|
  (StableHlo.after_of_writes_sub hostOps1 (W2 m ρ c) hostOps1_writes (r := main_arg0) (by decide)).trans <|
  (W2_of_ne m ρ c main_arg0 (by decide)).trans <|
  (StableHlo.after_of_writes_sub hostOps0 (W0 m ρ c) hostOps0_writes (r := main_arg0) (by decide)).trans rfl

theorem W5_main_arg2 (c : Dev nD) : W5 m ρ c (Proc.devRef .tc main_arg2) = m ((c : Thread nD τ).loc main_arg2) :=
  (StableHlo.after_of_writes_sub hostOps2 (W4 m ρ c) hostOps2_writes (r := main_arg2) (by decide)).trans <|
  (W4_of_ne m ρ c main_arg2 (by decide)).trans <|
  (StableHlo.after_of_writes_sub hostOps1 (W2 m ρ c) hostOps1_writes (r := main_arg2) (by decide)).trans <|
  (W2_of_ne m ρ c main_arg2 (by decide)).trans <|
  (StableHlo.after_of_writes_sub hostOps0 (W0 m ρ c) hostOps0_writes (r := main_arg2) (by decide)).trans rfl

theorem W5_main_arg1 (c : Dev nD) : W5 m ρ c (Proc.devRef .tc main_arg1) = m ((c : Thread nD τ).loc main_arg1) :=
  (StableHlo.after_of_writes_sub hostOps2 (W4 m ρ c) hostOps2_writes (r := main_arg1) (by decide)).trans <|
  (W4_of_ne m ρ c main_arg1 (by decide)).trans <|
  (StableHlo.after_of_writes_sub hostOps1 (W2 m ρ c) hostOps1_writes (r := main_arg1) (by decide)).trans <|
  ((W2_arr m ρ c 0).trans (((dat0 (V1 m ρ) c).arrAt_in 0 rfl _).trans (A_eq0 (V1 m ρ) c 0))).trans <|
  (StableHlo.after_of_writes_sub hostOps0 (W0 m ρ c) hostOps0_writes (r := main_arg1) (by decide)).trans rfl

/-- The frame: the program runs to the end, nothing faulting, and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

/-- The run with the result named: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v5 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Hand

end
-- ==== Proof.Val.Pieces.lean ====
/-
  What the product kernel's two cases leave, with the views gone: the codes' scratch is the overlay of four column slabs,
  each the clamp of the rounded quotients of its 1024 columns of the x block by the block's row scales; the scales' scratch
  is one store of those row scales; and the output block is one store of the product-and-epilogue of whatever codes and
  scales the scratch holds with the other three windows' blocks.
-/
import proofs.«148322_j15324443312229_2_alg».proof.Proof.KI.Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The four stores into the codes' scratch, last first, over the x block `x0`. -/
def codePieces (x0 : Vec F S512x4096 .f32) : List (View.Piece (Elt F) S512x4096 .bf16) :=
  [⟨(Rect.unit (s := S512x4096) ![0, 3072] S512x1024.size inb_S512x4096_S512x1024_0_3072), k1_pay1 (k1_pay10 (k1_pay3 (View.ld x0 (Rect.unit (s := S512x4096) ![0, 0] S512x1024.size inb_S512x4096_S512x1024_0_0)) (View.ld x0 (Rect.unit (s := S512x4096) ![0, 1024] S512x1024.size inb_S512x4096_S512x1024_0_1024)) (View.ld x0 (Rect.unit (s := S512x4096) ![0, 2048] S512x1024.size inb_S512x4096_S512x1024_0_2048)) (View.ld x0 (Rect.unit (s := S512x4096) ![0, 3072] S512x1024.size inb_S512x4096_S512x1024_0_3072))) (View.ld x0 (Rect.unit (s := S512x4096) ![0, 3072] S512x1024.size inb_S512x4096_S512x1024_0_3072))) (FloatOps.ofBits (F := F) .f32 0x42FE0000#32) k1_pay11⟩,
   ⟨(Rect.unit (s := S512x4096) ![0, 2048] S512x1024.size inb_S512x4096_S512x1024_0_2048), k1_pay9 (k1_pay3 (View.ld x0 (Rect.unit (s := S512x4096) ![0, 0] S512x1024.size inb_S512x4096_S512x1024_0_0)) (View.ld x0 (Rect.unit (s := S512x4096) ![0, 1024] S512x1024.size inb_S512x4096_S512x1024_0_1024)) (View.ld x0 (Rect.unit (s := S512x4096) ![0, 2048] S512x1024.size inb_S512x4096_S512x1024_0_2048)) (View.ld x0 (Rect.unit (s := S512x4096) ![0, 3072] S512x1024.size inb_S512x4096_S512x1024_0_3072))) (View.ld x0 (Rect.unit (s := S512x4096) ![0, 2048] S512x1024.size inb_S512x4096_S512x1024_0_2048))⟩,
   ⟨(Rect.unit (s := S512x4096) ![0, 1024] S512x1024.size inb_S512x4096_S512x1024_0_1024), k1_pay8 (k1_pay3 (View.ld x0 (Rect.unit (s := S512x4096) ![0, 0] S512x1024.size inb_S512x4096_S512x1024_0_0)) (View.ld x0 (Rect.unit (s := S512x4096) ![0, 1024] S512x1024.size inb_S512x4096_S512x1024_0_1024)) (View.ld x0 (Rect.unit (s := S512x4096) ![0, 2048] S512x1024.size inb_S512x4096_S512x1024_0_2048)) (View.ld x0 (Rect.unit (s := S512x4096) ![0, 3072] S512x1024.size inb_S512x4096_S512x1024_0_3072))) (View.ld x0 (Rect.unit (s := S512x4096) ![0, 1024] S512x1024.size inb_S512x4096_S512x1024_0_1024))⟩,
   ⟨(Rect.unit (s := S512x4096) ![0, 0] S512x1024.size inb_S512x4096_S512x1024_0_0), k1_pay7 (k1_pay5 (View.ld x0 (Rect.unit (s := S512x4096) ![0, 0] S512x1024.size inb_S512x4096_S512x1024_0_0)) (View.ld x0 (Rect.unit (s := S512x4096) ![0, 1024] S512x1024.size inb_S512x4096_S512x1024_0_1024)) (View.ld x0 (Rect.unit (s := S512x4096) ![0, 2048] S512x1024.size inb_S512x4096_S512x1024_0_2048)) (View.ld x0 (Rect.unit (s := S512x4096) ![0, 3072] S512x1024.size inb_S512x4096_S512x1024_0_3072)) (View.ld x0 (Rect.unit (s := S512x4096) ![0, 0] S512x1024.size inb_S512x4096_S512x1024_0_0))) (FloatOps.ofBits (F := F) .f32 0x42FE0000#32) k1_pay6⟩]

/-- The codes of the x block: the four slabs overlaid. -/
def xcodes (x0 : Vec F S512x4096 .f32) : Vec F S512x4096 .bf16 := View.canon (codePieces x0)
/-- The row scales of the x block. -/
def xscales (x0 : Vec F S512x4096 .f32) : Vec F S512x1 .f32 :=
  k1_pay4 (View.ld x0 (Rect.unit (s := S512x4096) ![0, 0] S512x1024.size inb_S512x4096_S512x1024_0_0)) (View.ld x0 (Rect.unit (s := S512x4096) ![0, 1024] S512x1024.size inb_S512x4096_S512x1024_0_1024)) (View.ld x0 (Rect.unit (s := S512x4096) ![0, 2048] S512x1024.size inb_S512x4096_S512x1024_0_2048)) (View.ld x0 (Rect.unit (s := S512x4096) ![0, 3072] S512x1024.size inb_S512x4096_S512x1024_0_3072))

theorem run1_A_codes (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : cond1_0 i)
    (x0 : Vec F S512x4096 .f32) (x1 : Vec F S512x4096 .bf16) (x2 : Vec F S1x512 .f32) (x3 : Vec F S1x512 .f32) :
    (kernelRun1_A c i arg2 harg2 arg3 harg3 arg4 harg4 arg5 harg5 arg6 harg6 arg7 harg7 arg8 harg8 hc0 x0 x1 x2 x3).2.1 = codePieces x0 := by
  unfold kernelRun1_A
  dsimp only
  sl_unfold_words
  simp only [View.readAt_eq_ld, harg2.read_unread]
  rfl

theorem sout1_A_0_eq (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : cond1_0 i)
    (x0 : Vec F S512x4096 .f32) (x1 : Vec F S512x4096 .bf16) (x2 : Vec F S1x512 .f32) (x3 : Vec F S1x512 .f32) :
    sout1_A_0 c i arg2 harg2 arg3 harg3 arg4 harg4 arg5 harg5 arg6 harg6 arg7 harg7 arg8 harg8 hc0 x0 x1 x2 x3 = xcodes x0 := by
  unfold sout1_A_0 xcodes
  rw [View.read_writes_junk_eq_canon, run1_A_codes]

theorem sout1_A_1_eq (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : cond1_0 i)
    (x0 : Vec F S512x4096 .f32) (x1 : Vec F S512x4096 .bf16) (x2 : Vec F S1x512 .f32) (x3 : Vec F S1x512 .f32) :
    sout1_A_1 c i arg2 harg2 arg3 harg3 arg4 harg4 arg5 harg5 arg6 harg6 arg7 harg7 arg8 harg8 hc0 x0 x1 x2 x3 = xscales x0 := by
  unfold sout1_A_1 xscales
  rw [View.read_writes_junk_eq_canon]
  unfold kernelRun1_A
  dsimp only
  sl_unfold_words
  rw [View.canon_unit_zero hz2]
  simp only [View.readAt_eq_ld, harg2.read_unread]

/-- The output block of a later column block: the product-and-epilogue of the scratch contents it finds. -/
theorem out1_B_4_eq (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : ¬cond1_0 i)
    (x0 : Vec F S512x4096 .f32) (x1 : Vec F S512x4096 .bf16) (x2 : Vec F S1x512 .f32) (x3 : Vec F S1x512 .f32)
    (xs0 : Vec F S512x4096 .bf16) (xs1 : Vec F S512x1 .f32) :
    out1_B_4 c i arg2 harg2 arg3 harg3 arg4 harg4 arg5 harg5 arg6 harg6 arg7 harg7 arg8 harg8 hc0 x0 x1 x2 x3 xs0 xs1 = k1_pay2 xs0 x1 xs1 x2 x3 := by
  unfold out1_B_4
  rw [View.read_writes_junk_eq_canon]
  unfold kernelRun1_B
  dsimp only
  rw [View.canon_unit_zero hz2]
  simp only [View.readAt_eq_ld, harg3.read_unread, harg4.read_unread, harg5.read_unread, harg7.read_unread, harg8.read_unread,
    View.ld_unit_zero (S := S512x4096) hz2, View.ld_unit_zero (S := S1x512) hz2, View.ld_unit_zero (S := S512x1) hz2]

/-- The output block of the first column block: the same, of the codes and scales it has just stored. -/
theorem out1_A_4_eq (c : Dev nD) (i : grid1.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (arg8 : Memref sig .tc .vmem S512x1 .f32) (harg8 : arg8.IsWhole) (hc0 : cond1_0 i)
    (x0 : Vec F S512x4096 .f32) (x1 : Vec F S512x4096 .bf16) (x2 : Vec F S1x512 .f32) (x3 : Vec F S1x512 .f32) :
    out1_A_4 c i arg2 harg2 arg3 harg3 arg4 harg4 arg5 harg5 arg6 harg6 arg7 harg7 arg8 harg8 hc0 x0 x1 x2 x3 = k1_pay2 (xcodes x0) x1 (xscales x0) x2 x3 := by
  unfold out1_A_4
  rw [View.read_writes_junk_eq_canon]
  unfold kernelRun1_A
  dsimp only
  sl_unfold_words
  rw [View.canon_unit_zero hz2, View.readCov_unit_zero (S := S512x1) _ hz2]
  rw [View.readCov_eq_canon']
  simp only [View.readAt_eq_ld, harg2.read_unread, harg3.read_unread, harg4.read_unread, harg5.read_unread,
    View.ld_unit_zero (S := S512x4096) hz2, View.ld_unit_zero (S := S1x512) hz2]
  show k1_pay2 (View.ld (xcodes x0) (Rect.unit (s := S512x4096) ![0, 0] S512x4096.size inb_S512x4096_S512x4096_0_0)) x1 (xscales x0) x2 x3 = _
  rw [View.ld_unit_zero (S := S512x4096) hz2]

end Cert.KernelIdeal.Hand

end
-- ==== Proof.Spec.lean ====
/-
  The mathematics both programs compute, over the extended reals and over plain coordinates.

  A row's scale is max(M / 127, 1e-8) with M the largest magnitude in the row; an entry's code is its quotient by the
  row's scale, rounded to the nearest integer (ties to even) and clamped to [-128, 127]. The kernel multiplies codes and
  applies the two scales once, after the sum; the reference multiplies de-quantised entries code · scale. The float words
  (127, -128, 1e-8's nearest float, -inf) are kept as words: the same word stands on both sides and is never evaluated.
-/
import Idealize.ShloMosaic.PureOps.Ideal
import Idealize.ShloMosaic.Lib.ValueIdx

noncomputable section

namespace Cert.Quant

open Idealize.ShloMosaic

/-- 127 as the f32 word both programs carry. -/
def c127 : EReal := Ideal.ofBits .f32 0x42FE0000#32
/-- -128. -/
def cm128 : EReal := Ideal.ofBits .f32 0xC3000000#32
/-- The float nearest 1e-8. -/
def ceps : EReal := Ideal.ofBits .f32 0x322BCC77#32
/-- -inf, the starting value of a running maximum. -/
def ninf : EReal := Ideal.ofBits .f32 0xFF800000#32

/-- The largest magnitude of a row, as a running maximum from -inf (|v| is max v (-v)). -/
def rowMax {n : ℕ} (f : Fin n → EReal) : EReal :=
  (Finset.univ : Finset (Fin n)).fold max ninf (fun k => max (f k) (-(f k)))

/-- The scale of a row whose largest magnitude is `mx`. -/
def scaleOf (mx : EReal) : EReal := max (Ideal.div mx c127) ceps

/-- The integer code of `v` at scale `s`. -/
def codeOf (v s : EReal) : EReal :=
  min c127 (max cm128 (Ideal.liftRound Ideal.roundHalfEven (Ideal.div v s)))

variable (x : Fin 4 → Fin 2048 → Fin 4096 → EReal) (w : Fin 4096 → Fin 4096 → EReal) (b : Fin 4096 → EReal)

/-- The scale of token (bb, s) of x. -/
def sx (bb : Fin 4) (s : Fin 2048) : EReal := scaleOf (rowMax (x bb s))
/-- The scale of output channel o of w. -/
def sw (o : Fin 4096) : EReal := scaleOf (rowMax (w o))

/-- The kernel's arrangement: codes multiplied and summed, the two scales applied once, the bias added. -/
def kerForm (bb : Fin 4) (s : Fin 2048) (o : Fin 4096) : EReal :=
  (∑ k : Fin 4096, codeOf (x bb s k) (sx x bb s) * codeOf (w o k) (sw w o)) * (sx x bb s * sw w o) + b o

/-- The reference's arrangement: de-quantised entries multiplied and summed, the bias added. -/
def refForm (bb : Fin 4) (s : Fin 2048) (o : Fin 4096) : EReal :=
  (∑ k : Fin 4096, (codeOf (x bb s k) (sx x bb s) * sx x bb s) * (codeOf (w o k) (sw w o) * sw w o)) + b o

end Cert.Quant

end
-- ==== Proof.LibMatmulNT.lean ====
/-
  A reusable lemma: the product of a matrix with the TRANSPOSE of another, read at an entry.

  A `tpu.matmul` whose dimension numbers contract the LAST axis of both operands — an [M,K] left operand and an
  [N,K] right operand, result [M,N] — accumulated into zeros is, at the ideal instance and at the entry (p, q),
      Σ_k lhs[p,k] · rhs[q,k],
  the sum over k : Fin K.  The statement is generic in M, K, N and in the operands' float formats, and holds for any
  dimension record equal to the library's `DotDims.transposedRhs M K N`.
-/
import Idealize.ShloMosaic.PureOps.Ideal.Laws
import Idealize.ShloMosaic.Lib.ValueIdx

noncomputable section

namespace Cert.MatmulNT

open Idealize.ShloMosaic Idealize.ShloMosaic.ValueIdx

variable {M K N : Nat}

/-- The left operand is read in the result's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The right operand is read in the row numbered by the result's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- A matrix times the transpose of another, into zeros, at the entry (p, q): Σ_k lhs[p,k] · rhs[q,k]. -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    matmul d prec lhs rhs (constant (F := Ideal) ⟨2, ![M, N]⟩ .f32 0x00000000#32) (ix2 p q)
      = ∑ k : Fin K, lhs (ix2 p k) * rhs (ix2 q k) := by
  subst hd
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k :=
    funext fun a => Fin.ext (by
      match a with
      | ⟨0, _⟩ => exact rhs_row _ _
      | ⟨1, _⟩ => exact ((DotDims.transposedRhs M K N).rhsIdx_val_of_single rfl _ _).trans hk)
  rw [el, er]

end Cert.MatmulNT

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.Val.Pay.lean ====
/-
  The kernels' arithmetic read at an entry, over the extended reals.

  A chunk's row maximum of magnitudes is a running maximum from -inf over its 1024 columns; the row scale is
  max(M / 127, 1e-8) of the largest of zero and the four chunk maxima; a code is the clamp of the rounded quotient by the
  row's scale; the product kernel's output entry (p, q) is the sum over k of code-row p of the first operand times row q of
  the second, times the product of the row scale and the column scale, plus the bias of column q.
-/
import proofs.«148322_j15324443312229_2_alg».proof.Proof.Gen.KernelIdeal.Skeleton
import proofs.«148322_j15324443312229_2_alg».proof.Proof.Spec
import proofs.«148322_j15324443312229_2_alg».proof.Proof.LibMatmulNT
import proofs.«148322_j15324443312229_2_alg».proof.Proof.LibSlabLayout
import proofs.«148322_j15324443312229_2_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.Quant
open Idealize.ShloMosaic Idealize.ShloMosaic.ValueIdx

/-- The largest magnitude in row `p` of an [a, n] block, as a running maximum from -inf. -/
def blockRowMax {a n : ℕ} (v : (⟨2, ![a, n]⟩ : Shape).Idx → EReal) (p : Fin a) : EReal :=
  rowMax (fun k : Fin n => v (ix2 p k))

/-- A row maximum of magnitudes kept as a column: |v| reduced along the columns from -inf, viewed as [a, 1]. -/
theorem rowmax_column {a n : ℕ} (v : FVec Ideal ⟨2, ![a, n]⟩ .f32)
    (hc : (⟨2, ![a, n]⟩ : Shape).ShapeCasts ⟨2, ![a, n]⟩) (hr : (⟨2, ![a, n]⟩ : Shape).Reduces [(1 : Fin 2)] ⟨1, ![a]⟩)
    (hk : (⟨1, ![a]⟩ : Shape).ShapeCasts ⟨2, ![a, 1]⟩) (p : Fin a) :
    shapeCast ⟨2, ![a, 1]⟩ (multiReduction (F := Ideal) .maximumf [(1 : Fin 2)] ⟨1, ![a]⟩ (absf (shapeCast ⟨2, ![a, n]⟩ v hc)) 0xFF800000#32 hr (.inl rfl) rfl) hk (ix2 p (0 : Fin 1))
      = blockRowMax v p := by
  refine (Cert.KeepdimsColumn.shapeCast_a_a1_apply _ hk p 0).trans ?_
  refine (Cert.SlabLayout.rowMax_apply _ _ hr (.inl rfl) rfl p).trans ?_
  rw [shapeCast_self]
  rfl

/-- The same without the leading cast (the first kernel reduces its loaded block directly). -/
theorem rowmax_column' {a n : ℕ} (v : FVec Ideal ⟨2, ![a, n]⟩ .f32)
    (hr : (⟨2, ![a, n]⟩ : Shape).Reduces [(1 : Fin 2)] ⟨1, ![a]⟩)
    (hk : (⟨1, ![a]⟩ : Shape).ShapeCasts ⟨2, ![a, 1]⟩) (p : Fin a) :
    shapeCast ⟨2, ![a, 1]⟩ (multiReduction (F := Ideal) .maximumf [(1 : Fin 2)] ⟨1, ![a]⟩ (absf v) 0xFF800000#32 hr (.inl rfl) rfl) hk (ix2 p (0 : Fin 1))
      = blockRowMax v p := by
  refine (Cert.KeepdimsColumn.shapeCast_a_a1_apply _ hk p 0).trans ?_
  refine (Cert.SlabLayout.rowMax_apply _ _ hr (.inl rfl) rfl p).trans ?_
  rfl

/-- Rounding acts entry by entry. -/
theorem roundeven_apply {s : Shape} {φ : FTy} (a : FVec Ideal s φ) (i : s.Idx) : roundeven a i = FloatOps.roundeven (a i) := rfl

/-- The zero word the running maximum over chunks starts from. -/
def zero32 : EReal := Ideal.ofBits .f32 0x00000000#32

/-- The product kernel's row scale: from zero, the four chunks' row maxima folded by max, then the scale. -/
theorem pay3_apply (v20 v26 v32 v38 : Vec Ideal S512x1024 .f32) (p : Fin 512) :
    k1_pay3 (F := Ideal) v20 v26 v32 v38 (ix2 p (0 : Fin 1))
      = scaleOf (max (max (max (max zero32 (blockRowMax v20 p)) (blockRowMax v26 p)) (blockRowMax v32 p)) (blockRowMax v38 p)) := by
  unfold k1_pay3
  simp only [maximumf_apply, divf_apply, broadcast_apply]
  rw [rowmax_column v20 _ _ _ p, rowmax_column v26 _ _ _ p, rowmax_column v32 _ _ _ p, rowmax_column v38 _ _ _ p]
  rfl

theorem pay4_apply (v20 v26 v32 v38 : Vec Ideal S512x1024 .f32) (p : Fin 512) :
    k1_pay4 (F := Ideal) v20 v26 v32 v38 (ix2 p (0 : Fin 1)) = k1_pay3 (F := Ideal) v20 v26 v32 v38 (ix2 p (0 : Fin 1)) := by
  unfold k1_pay4
  rw [shapeCast_self]

/-- A chunk's codes: the clamp of the rounded quotient by the row's scale. -/
theorem pay8_apply (s : FVec Ideal S512x1 .f32) (v : Vec Ideal S512x1024 .f32) (p : Fin 512) (k : Fin 1024) :
    k1_pay8 (F := Ideal) s v (ix2 p k) = codeOf (v (ix2 p k)) (s (ix2 p (0 : Fin 1))) := by
  unfold k1_pay8
  simp only [shapeCast_self, truncf_apply, minimumf_apply, maximumf_apply, broadcast_apply, roundeven_apply, divf_apply]
  rw [Cert.KeepdimsColumn.broadcastTo_a1_ab_apply s _ p k]
  rfl

theorem pay9_apply (s : FVec Ideal S512x1 .f32) (v : Vec Ideal S512x1024 .f32) (p : Fin 512) (k : Fin 1024) :
    k1_pay9 (F := Ideal) s v (ix2 p k) = codeOf (v (ix2 p k)) (s (ix2 p (0 : Fin 1))) := by
  unfold k1_pay9
  simp only [shapeCast_self, truncf_apply, minimumf_apply, maximumf_apply, broadcast_apply, roundeven_apply, divf_apply]
  rw [Cert.KeepdimsColumn.broadcastTo_a1_ab_apply s _ p k]
  rfl

theorem pay1_10_apply (s : FVec Ideal S512x1 .f32) (v : Vec Ideal S512x1024 .f32) (p : Fin 512) (k : Fin 1024) :
    k1_pay1 (F := Ideal) (k1_pay10 s v) (FloatOps.ofBits (F := Ideal) .f32 0x42FE0000#32) k1_pay11 (ix2 p k)
      = codeOf (v (ix2 p k)) (s (ix2 p (0 : Fin 1))) := by
  unfold k1_pay1 k1_pay10 k1_pay11
  simp only [shapeCast_self, truncf_apply, minimumf_apply, maximumf_apply, broadcast_apply, roundeven_apply, divf_apply]
  rw [Cert.KeepdimsColumn.broadcastTo_a1_ab_apply s _ p k]
  rfl

theorem pay7_5_apply (v20 v26 v32 v38 v : Vec Ideal S512x1024 .f32) (p : Fin 512) (k : Fin 1024) :
    k1_pay7 (F := Ideal) (k1_pay5 v20 v26 v32 v38 v) (FloatOps.ofBits (F := Ideal) .f32 0x42FE0000#32) k1_pay6 (ix2 p k)
      = codeOf (v (ix2 p k)) (k1_pay3 (F := Ideal) v20 v26 v32 v38 (ix2 p (0 : Fin 1))) := by
  unfold k1_pay7 k1_pay5 k1_pay6
  simp only [shapeCast_self, truncf_apply, minimumf_apply, maximumf_apply, broadcast_apply, roundeven_apply, divf_apply]
  rw [Cert.KeepdimsColumn.broadcastTo_a1_ab_apply _ _ p k]
  rfl

/-- The product and the epilogue at entry (p, q). -/
theorem pay2_apply (v3 v4 : Vec Ideal S512x4096 .bf16) (v7 : Vec Ideal S512x1 .f32) (v8 v14 : Vec Ideal S1x512 .f32)
    (p q : Fin 512) :
    k1_pay2 (F := Ideal) v3 v4 v7 v8 v14 (ix2 p q)
      = (∑ k : Fin 4096, v3 (ix2 p k) * v4 (ix2 q k)) * (v7 (ix2 p (0 : Fin 1)) * v8 (ix2 (0 : Fin 1) q)) + v14 (ix2 (0 : Fin 1) q) := by
  unfold k1_pay2
  simp only [shapeCast_self, addf_apply, mulf_apply]
  rw [Cert.MatmulNT.matmul_zero_apply dot_S512x4096_S512x4096_S512x512_1_1_0_0_n_n rfl none v3 v4 p q,
    Cert.KeepdimsColumn.broadcastTo_a1_ab_apply v7 _ p q, broadcastTo_1b_ab_apply v8 _ p q, broadcastTo_1b_ab_apply v14 _ p q]

/-- The first kernel's row scale. -/
theorem k0_pay1_apply (v0 : Vec Ideal S256x4096 .f32) (p : Fin 256) :
    k0_pay1 (F := Ideal) v0 (ix2 p (0 : Fin 1)) = scaleOf (blockRowMax v0 p) := by
  unfold k0_pay1
  simp only [maximumf_apply, divf_apply, broadcast_apply]
  rw [rowmax_column' v0 _ _ p]
  rfl

/-- The first kernel's codes. -/
theorem k0_pay2_apply (v0 : Vec Ideal S256x4096 .f32) (p : Fin 256) (k : Fin 4096) :
    k0_pay2 (F := Ideal) v0 (ix2 p k) = codeOf (v0 (ix2 p k)) (k0_pay1 (F := Ideal) v0 (ix2 p (0 : Fin 1))) := by
  unfold k0_pay2
  simp only [truncf_apply, minimumf_apply, maximumf_apply, broadcast_apply, roundeven_apply, divf_apply]
  rw [Cert.KeepdimsColumn.broadcastTo_a1_ab_apply _ _ p k]
  rfl

end Cert.KernelIdeal.Val

end
-- ==== Proof.SpecMax.lean ====
/-
  Two facts about the running maximum of magnitudes. Its starting word -inf is the bottom element; and taken chunk by
  chunk over four consecutive quarters of a row and folded from zero it is the maximum over the whole row — a magnitude
  is never negative, so the zero adds nothing, and every column lies in exactly one quarter.
-/
import proofs.«148322_j15324443312229_2_alg».proof.Proof.Spec
import Idealize.ShloMosaic.Lib.IdealHost

noncomputable section

namespace Cert.Quant

open Idealize.ShloMosaic

theorem ninf_eq_bot : ninf = ⊥ := by
  simp [ninf, Ideal.ofBits, Ideal.ieee]

theorem zero_word : Ideal.ofBits .f32 0x00000000#32 = (0 : EReal) := Ideal.ofBits_zero_f32

theorem abs_nonneg' (v : EReal) : (0 : EReal) ≤ max v (-v) := by
  rcases le_total 0 v with h | h
  · exact le_max_of_le_left h
  · exact le_max_of_le_right (by simpa using EReal.neg_le_neg_iff.mpr h)

theorem le_rowMax {n : ℕ} (f : Fin n → EReal) (k : Fin n) : max (f k) (-(f k)) ≤ rowMax f :=
  Finset.le_fold_max _ |>.mpr (Or.inr ⟨k, Finset.mem_univ _, le_rfl⟩)

theorem rowMax_le {n : ℕ} (f : Fin n → EReal) (z : EReal) (h : ∀ k, max (f k) (-(f k)) ≤ z) : rowMax f ≤ z :=
  Finset.fold_max_le _ |>.mpr ⟨by rw [ninf_eq_bot]; exact bot_le, fun k _ => h k⟩

/-- Zero and the four quarters' maxima fold to the whole row's maximum. -/
theorem rowMax_quarters (f : Fin 4096 → EReal)
    (g0 g1 g2 g3 : Fin 1024 → EReal)
    (h0 : ∀ k : Fin 1024, g0 k = f ⟨k.val, by omega⟩) (h1 : ∀ k : Fin 1024, g1 k = f ⟨1024 + k.val, by omega⟩)
    (h2 : ∀ k : Fin 1024, g2 k = f ⟨2048 + k.val, by omega⟩) (h3 : ∀ k : Fin 1024, g3 k = f ⟨3072 + k.val, by omega⟩) :
    max (max (max (max (Ideal.ofBits .f32 0x00000000#32) (rowMax g0)) (rowMax g1)) (rowMax g2)) (rowMax g3) = rowMax f := by
  rw [zero_word]
  apply le_antisymm
  · refine max_le (max_le (max_le (max_le ?_ ?_) ?_) ?_) ?_
    · exact (abs_nonneg' (f ⟨0, by omega⟩)).trans (le_rowMax f _)
    · exact rowMax_le g0 _ fun k => by rw [h0]; exact le_rowMax f _
    · exact rowMax_le g1 _ fun k => by rw [h1]; exact le_rowMax f _
    · exact rowMax_le g2 _ fun k => by rw [h2]; exact le_rowMax f _
    · exact rowMax_le g3 _ fun k => by rw [h3]; exact le_rowMax f _
  · refine rowMax_le f _ fun kk => ?_
    have hk := kk.isLt
    by_cases c0 : kk.val < 1024
    · have e : f kk = g0 ⟨kk.val, c0⟩ := by rw [h0]
      rw [e]
      exact (le_rowMax g0 _).trans (le_max_of_le_left (le_max_of_le_left (le_max_of_le_left (le_max_right _ _))))
    · by_cases c1 : kk.val < 2048
      · have e : f kk = g1 ⟨kk.val - 1024, by omega⟩ := by rw [h1]; congr 1; apply Fin.ext; show kk.val = 1024 + (kk.val - 1024); omega
        rw [e]
        exact (le_rowMax g1 _).trans (le_max_of_le_left (le_max_of_le_left (le_max_right _ _)))
      · by_cases c2 : kk.val < 3072
        · have e : f kk = g2 ⟨kk.val - 2048, by omega⟩ := by rw [h2]; congr 1; apply Fin.ext; show kk.val = 2048 + (kk.val - 2048); omega
          rw [e]
          exact (le_rowMax g2 _).trans (le_max_of_le_left (le_max_right _ _))
        · have e : f kk = g3 ⟨kk.val - 3072, by omega⟩ := by rw [h3]; congr 1; apply Fin.ext; show kk.val = 3072 + (kk.val - 3072); omega
          rw [e]
          exact (le_rowMax g3 _).trans (le_max_right _ _)

end Cert.Quant

end
-- ==== Proof.Val.Blocks.lean ====
/-
  The product kernel's blocks as functions of the input blocks, entry by entry.

  Row p of the codes' scratch holds, in column kk, the code of x0[p, kk] at the scale of row p — each of the four slabs
  is that function on its own columns —, and the scales' scratch holds that scale; the scale is the one of the WHOLE row's
  largest magnitude, because the four chunk maxima folded from zero are the row maximum.
-/
import proofs.«148322_j15324443312229_2_alg».proof.Proof.Val.Pieces
import proofs.«148322_j15324443312229_2_alg».proof.Proof.Val.Pay
import proofs.«148322_j15324443312229_2_alg».proof.Proof.SpecMax

set_option maxRecDepth 16384

noncomputable section

namespace Cert.KernelIdeal.Val

open Cert.KernelIdeal Cert.KernelIdeal.Gen Cert.KernelIdeal.Hand Cert.Quant
open Idealize.ShloMosaic Idealize.ShloMosaic.ValueIdx

/-- Entry (p, k) of a slab of 1024 columns starting at column `o` is entry (p, o + k) of the block. -/
theorem slab_emb (o : ℕ) (inb : ∀ a, (![0, o] : Fin 2 → ℕ) a + S512x1024.size a ≤ S512x4096.size a) (p : Fin 512) (k : Fin 1024)
    (h : o + k.val < 4096) :
    (Rect.unit (s := S512x4096) ![0, o] S512x1024.size inb).emb (ix2 p k) = ix2 p (⟨o + k.val, h⟩ : Fin 4096) := by
  funext a
  apply Fin.ext
  match a with
  | ⟨0, _⟩ => show 0 + 1 * p.val = p.val; omega
  | ⟨1, _⟩ => show o + 1 * k.val = o + k.val; omega

theorem ld_slab (x0 : Vec Ideal S512x4096 .f32) (o : ℕ) (inb : ∀ a, (![0, o] : Fin 2 → ℕ) a + S512x1024.size a ≤ S512x4096.size a)
    (p : Fin 512) (k : Fin 1024) (h : o + k.val < 4096) :
    View.ld x0 (Rect.unit (s := S512x4096) ![0, o] S512x1024.size inb) (ix2 p k) = x0 (ix2 p (⟨o + k.val, h⟩ : Fin 4096)) :=
  congrArg x0 (slab_emb o inb p k h)

/-- The scale of row p of the x block. -/
def blockScale (x0 : Vec Ideal S512x4096 .f32) (p : Fin 512) : EReal := scaleOf (rowMax fun kk : Fin 4096 => x0 (ix2 p kk))

/-- The scales' scratch holds the whole row's scale. -/
theorem xscales_apply (x0 : Vec Ideal S512x4096 .f32) (p : Fin 512) :
    xscales (F := Ideal) x0 (ix2 p (0 : Fin 1)) = blockScale x0 p := by
  unfold xscales blockScale
  rw [pay4_apply, pay3_apply]
  refine congrArg scaleOf ?_
  exact rowMax_quarters (fun kk : Fin 4096 => x0 (ix2 p kk)) _ _ _ _
    (fun k => (ld_slab x0 0 _ p k (by omega)).trans (by congr 2; apply Fin.ext; show 0 + k.val = k.val; omega))
    (fun k => ld_slab x0 1024 _ p k (by omega))
    (fun k => ld_slab x0 2048 _ p k (by omega))
    (fun k => ld_slab x0 3072 _ p k (by omega))

theorem pay3_eq_scale (x0 : Vec Ideal S512x4096 .f32) (p : Fin 512) :
    k1_pay3 (F := Ideal) (View.ld x0 (Rect.unit (s := S512x4096) ![0, 0] S512x1024.size inb_S512x4096_S512x1024_0_0)) (View.ld x0 (Rect.unit (s := S512x4096) ![0, 1024] S512x1024.size inb_S512x4096_S512x1024_0_1024)) (View.ld x0 (Rect.unit (s := S512x4096) ![0, 2048] S512x1024.size inb_S512x4096_S512x1024_0_2048)) (View.ld x0 (Rect.unit (s := S512x4096) ![0, 3072] S512x1024.size inb_S512x4096_S512x1024_0_3072)) (ix2 p (0 : Fin 1))
      = blockScale x0 p := by
  rw [← pay4_apply]; exact xscales_apply x0 p

/-- The codes' scratch holds, entry by entry, the code of the x block's entry at its row's scale. -/
theorem xcodes_apply (x0 : Vec Ideal S512x4096 .f32) (p : Fin 512) (kk : Fin 4096) :
    xcodes (F := Ideal) x0 (ix2 p kk) = codeOf (x0 (ix2 p kk)) (blockScale x0 p) := by
  unfold xcodes
  have hG := View.canon_apply_of_pieces (Val := Elt Ideal) (S := S512x4096) (e := .bf16)
    (fun y => codeOf (x0 y) (blockScale x0 ⟨(y 0).val, idx2_lt0 y⟩)) (codePieces (F := Ideal) x0) ?_ (ix2 p kk)
    (View.cover_of_tiledL (codePieces (F := Ideal) x0) S512x1024.size (by sl_kernel_rfl) (ix2 p kk))
  · exact hG
  · intro pc hpc
    simp only [codePieces, List.mem_cons, List.mem_singleton, List.not_mem_nil, or_false] at hpc
    rcases hpc with rfl | rfl | rfl | rfl
    · intro x
      obtain ⟨q, k, rfl⟩ : ∃ (q : Fin 512) (k : Fin 1024), x = ix2 q k := ⟨x 0, x 1, eq_ix2 (n0 := 512) (n1 := 1024) x⟩
      show k1_pay1 (F := Ideal) _ _ _ (ix2 q k) = _
      rw [pay1_10_apply, pay3_eq_scale, ld_slab x0 3072 _ q k (by omega), slab_emb 3072 _ q k (by omega)]
    · intro x
      obtain ⟨q, k, rfl⟩ : ∃ (q : Fin 512) (k : Fin 1024), x = ix2 q k := ⟨x 0, x 1, eq_ix2 (n0 := 512) (n1 := 1024) x⟩
      show k1_pay9 (F := Ideal) _ _ (ix2 q k) = _
      rw [pay9_apply, pay3_eq_scale, ld_slab x0 2048 _ q k (by omega), slab_emb 2048 _ q k (by omega)]
    · intro x
      obtain ⟨q, k, rfl⟩ : ∃ (q : Fin 512) (k : Fin 1024), x = ix2 q k := ⟨x 0, x 1, eq_ix2 (n0 := 512) (n1 := 1024) x⟩
      show k1_pay8 (F := Ideal) _ _ (ix2 q k) = _
      rw [pay8_apply, pay3_eq_scale, ld_slab x0 1024 _ q k (by omega), slab_emb 1024 _ q k (by omega)]
    · intro x
      obtain ⟨q, k, rfl⟩ : ∃ (q : Fin 512) (k : Fin 1024), x = ix2 q k := ⟨x 0, x 1, eq_ix2 (n0 := 512) (n1 := 1024) x⟩
      show k1_pay7 (F := Ideal) _ _ _ (ix2 q k) = _
      rw [pay7_5_apply, pay3_eq_scale, ld_slab x0 0 _ q k (by omega), slab_emb 0 _ q k (by omega)]

/-- The output block from scratch contents that are the codes and scales of a block `x0`: entry (p, q). -/
theorem outBlock_apply (x0 : Vec Ideal S512x4096 .f32) (x1 : Vec Ideal S512x4096 .bf16) (x2 x3 : Vec Ideal S1x512 .f32) (p q : Fin 512) :
    k1_pay2 (F := Ideal) (xcodes x0) x1 (xscales x0) x2 x3 (ix2 p q)
      = (∑ k : Fin 4096, codeOf (x0 (ix2 p k)) (blockScale x0 p) * x1 (ix2 q k)) * (blockScale x0 p * x2 (ix2 (0 : Fin 1) q))
        + x3 (ix2 (0 : Fin 1) q) := by
  rw [pay2_apply, xscales_apply]
  simp only [xcodes_apply]

end Cert.KernelIdeal.Val

end
-- ==== Proof.Val.Grid1.lean ====
/-
  The product region, point by point. Point t of the 16 × 8 grid works on row block t / 8 and column block t % 8. The
  scratch buffers after point t hold the codes and scales of the x block of t's ROW block — filled at the row block's first
  point, t - t % 8, and handed on untouched since —, so the output block at every point is the product-and-epilogue of
  those with the point's blocks of the quantised weights, their scales and the bias.
-/
import proofs.«148322_j15324443312229_2_alg».proof.Proof.Val.Blocks

set_option maxRecDepth 16384

noncomputable section

namespace Cert.KernelIdeal.Val

open Cert.KernelIdeal Cert.KernelIdeal.Gen Cert.KernelIdeal.Hand Cert.Quant
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The first point of `t`'s row block. -/
def base (t : Fin cfg1.N) : Fin cfg1.N := ⟨t.val - t.val % 8, lt_of_le_of_lt (Nat.sub_le _ _) t.isLt⟩

theorem base_of_first (t : Fin cfg1.N) (h : t.val % 8 = 0) : base t = t :=
  Fin.ext (by show t.val - t.val % 8 = t.val; rw [h]; rfl)

theorem base_succ (n : ℕ) (hn : n + 1 < cfg1.N) (h : ¬(n + 1) % 8 = 0) :
    base ⟨n + 1, hn⟩ = base ⟨n, Nat.lt_of_succ_lt hn⟩ :=
  Fin.ext (by show n + 1 - (n + 1) % 8 = n - n % 8; omega)

/-- The scratch after point n: the codes and scales of the x block at the row block's first point. -/
theorem scratch_at (c : Dev nD) : ∀ (n : ℕ) (hn : n < cfg1.N),
    (outsAt1 V c n hn).2.1 = xcodes (F := Ideal) (iblk1 V c 0 (base ⟨n, hn⟩)) ∧ (outsAt1 V c n hn).2.2 = xscales (F := Ideal) (iblk1 V c 0 (base ⟨n, hn⟩))
  | 0, hn => by
    rw [outsAt1_A V c ⟨0, hn⟩ rfl, base_of_first ⟨0, hn⟩ rfl]
    dsimp only
    rw [sout1_A_0_eq (F := Ideal), sout1_A_1_eq (F := Ideal)]
    exact ⟨rfl, rfl⟩
  | n + 1, hn => by
    by_cases h0 : (n + 1) % 8 = 0
    · rw [outsAt1_A V c ⟨n + 1, hn⟩ h0, base_of_first ⟨n + 1, hn⟩ h0]
      dsimp only
      rw [sout1_A_0_eq (F := Ideal), sout1_A_1_eq (F := Ideal)]
      exact ⟨rfl, rfl⟩
    · rw [outsAt1_B V c ⟨n + 1, hn⟩ h0, base_succ n hn h0]
      exact scratch_at c n _

/-- The output block after point t. -/
theorem out_at (c : Dev nD) (t : Fin cfg1.N) :
    (outsAt1 V c t.val t.isLt).1
      = k1_pay2 (F := Ideal) (xcodes (F := Ideal) (iblk1 V c 0 (base t))) (iblk1 V c 1 t) (xscales (F := Ideal) (iblk1 V c 0 (base t))) (iblk1 V c 2 t) (iblk1 V c 3 t) := by
  by_cases h0 : t.val % 8 = 0
  · rw [outsAt1_A V c t h0, base_of_first t h0]
    dsimp only
    rw [out1_A_4_eq (F := Ideal)]
  · rw [outsAt1_B V c t h0]
    dsimp only
    rw [out1_B_4_eq (F := Ideal), (scratch_at V c (t.val - 1) _).1, (scratch_at V c (t.val - 1) _).2]
    have e : base ⟨t.val - 1, Nat.lt_of_le_of_lt (Nat.sub_le _ _) t.isLt⟩ = base t :=
      Fin.ext (by show t.val - 1 - (t.val - 1) % 8 = t.val - t.val % 8; omega)
    rw [e]

/-- The index maps, decided over the grid: x by row block, the weights' codes, scales and the bias by column block, the
    output by both. -/
theorem idx1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = 0 ∧ win1_2.index t (1 : Fin 2) = t.val % 8
    ∧ win1_3.index t (0 : Fin 2) = 0 ∧ win1_3.index t (1 : Fin 2) = t.val % 8
    ∧ win1_4.index t (0 : Fin 2) = t.val / 8 ∧ win1_4.index t (1 : Fin 2) = t.val % 8 :=
  (by decide +kernel : ∀ t : Fin grid1.N, _)

/-- Row p, column k of the x block at point t is row 512·(t/8) + p of the array. -/
theorem iblk1_0_apply (c : Dev nD) (t : Fin cfg1.N) (p : Fin 512) (k : Fin 4096) (h : 512 * (t.val / 8) + p.val < 8192) :
    (iblk1 V c 0 t : Vec Ideal S512x4096 .f32) (ix2 p k) = V c main_v0 (ix2 (⟨512 * (t.val / 8) + p.val, h⟩ : Fin 8192) k) := by
  unfold iblk1
  rw [View.read_apply]
  show V c main_v0 _ = V c main_v0 _
  congr 1
  funext a
  apply Fin.ext
  obtain ⟨e0, e1, -⟩ := idx1 t
  match a with
  | ⟨0, _⟩ => show win1_0.index t (0 : Fin 2) * 512 + 1 * p.val = 512 * (t.val / 8) + p.val; rw [e0]; omega
  | ⟨1, _⟩ => show win1_0.index t (1 : Fin 2) * 4096 + 1 * k.val = k.val; rw [e1]; omega

theorem iblk1_1_apply (c : Dev nD) (t : Fin cfg1.N) (q : Fin 512) (k : Fin 4096) (h : 512 * (t.val % 8) + q.val < 4096) :
    (iblk1 V c 1 t : Vec Ideal S512x4096 .bf16) (ix2 q k) = V c main_v2_0 (ix2 (⟨512 * (t.val % 8) + q.val, h⟩ : Fin 4096) k) := by
  unfold iblk1
  rw [View.read_apply]
  show V c main_v2_0 _ = V c main_v2_0 _
  congr 1
  funext a
  apply Fin.ext
  obtain ⟨-, -, e0, e1, -⟩ := idx1 t
  match a with
  | ⟨0, _⟩ => show win1_1.index t (0 : Fin 2) * 512 + 1 * q.val = 512 * (t.val % 8) + q.val; rw [e0]; omega
  | ⟨1, _⟩ => show win1_1.index t (1 : Fin 2) * 4096 + 1 * k.val = k.val; rw [e1]; omega

theorem iblk1_2_apply (c : Dev nD) (t : Fin cfg1.N) (q : Fin 512) (h : 512 * (t.val % 8) + q.val < 4096) :
    (iblk1 V c 2 t : Vec Ideal S1x512 .f32) (ix2 (0 : Fin 1) q) = V c main_v3 (ix2 (0 : Fin 1) (⟨512 * (t.val % 8) + q.val, h⟩ : Fin 4096)) := by
  unfold iblk1
  rw [View.read_apply]
  show V c main_v3 _ = V c main_v3 _
  congr 1
  funext a
  apply Fin.ext
  obtain ⟨-, -, -, -, e0, e1, -⟩ := idx1 t
  match a with
  | ⟨0, _⟩ => show win1_2.index t (0 : Fin 2) * 1 + 1 * 0 = 0; rw [e0]
  | ⟨1, _⟩ => show win1_2.index t (1 : Fin 2) * 512 + 1 * q.val = 512 * (t.val % 8) + q.val; rw [e1]; omega

theorem iblk1_3_apply (c : Dev nD) (t : Fin cfg1.N) (q : Fin 512) (h : 512 * (t.val % 8) + q.val < 4096) :
    (iblk1 V c 3 t : Vec Ideal S1x512 .f32) (ix2 (0 : Fin 1) q) = V c main_v1 (ix2 (0 : Fin 1) (⟨512 * (t.val % 8) + q.val, h⟩ : Fin 4096)) := by
  unfold iblk1
  rw [View.read_apply]
  show V c main_v1 _ = V c main_v1 _
  congr 1
  funext a
  apply Fin.ext
  obtain ⟨-, -, -, -, -, -, e0, e1, -⟩ := idx1 t
  match a with
  | ⟨0, _⟩ => show win1_3.index t (0 : Fin 2) * 1 + 1 * 0 = 0; rw [e0]
  | ⟨1, _⟩ => show win1_3.index t (1 : Fin 2) * 512 + 1 * q.val = 512 * (t.val % 8) + q.val; rw [e1]; omega

end Cert.KernelIdeal.Val

end
-- ==== Proof.Val.Array1.lean ====
/-
  The product region's output array as one function of the arrays the region is entered with: entry (r, o) is the sum
  over k of the code of x[r, k] (at row r's scale) times the weight code [o, k], times the product of row r's scale and
  channel o's scale, plus the bias of o. Point t writes back rows 512·(t/8) … and columns 512·(t%8) … of it, and the 128
  points' blocks cover the 8192 × 4096 array.
-/
import proofs.«148322_j15324443312229_2_alg».proof.Proof.Val.Grid1

set_option maxRecDepth 16384

noncomputable section

namespace Cert.KernelIdeal.Val

open Cert.KernelIdeal Cert.KernelIdeal.Gen Cert.KernelIdeal.Hand Cert.Quant
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- One output entry from rows of the entry arrays, by coordinates. -/
def rowOut (x2 : Fin 8192 → Fin 4096 → EReal) (wc : Fin 4096 → Fin 4096 → EReal) (ws b2 : Fin 4096 → EReal)
    (r : Fin 8192) (o : Fin 4096) : EReal :=
  (∑ k : Fin 4096, codeOf (x2 r k) (scaleOf (rowMax (x2 r))) * wc o k) * (scaleOf (rowMax (x2 r)) * ws o) + b2 o

/-- The output array after the region. -/
def Y1 (c : Dev nD) : Buf (Elt Ideal) ((c : Thread nD τ).loc main_v4) := fun i =>
  rowOut (fun r k => V c main_v0 (ix2 r k)) (fun o k => V c main_v2_0 (ix2 o k)) (fun o => V c main_v3 (ix2 (0 : Fin 1) o))
    (fun o => V c main_v1 (ix2 (0 : Fin 1) o)) ⟨(i 0).val, idx2_lt0 i⟩ ⟨(i 1).val, idx2_lt1 i⟩

theorem Y1_at (c : Dev nD) (i : S8192x4096.Idx) (r : Fin 8192) (o : Fin 4096) (hr : (i 0).val = r.val) (ho : (i 1).val = o.val) :
    Y1 V c i = rowOut (fun r k => V c main_v0 (ix2 r k)) (fun o k => V c main_v2_0 (ix2 o k)) (fun o => V c main_v3 (ix2 (0 : Fin 1) o))
      (fun o => V c main_v1 (ix2 (0 : Fin 1) o)) r o := by
  unfold Y1
  congr 1 <;> exact Fin.ext (by assumption)

/-- What point t writes back is block t of `Y1`. -/
theorem flushed1_eq (c : Dev nD) (t : Fin cfg1.N) :
    (dat1 V c).flushed 4 t = ((cfg1.win 4).blk t).view.read (Elt Ideal) (Y1 V c) := by
  show (cfg1.win 4).cut (grid1.coords t) ((dat1 V c).after 4 t) = _
  rw [after1_4, out_at]
  have hN : t.val < 128 := lt_of_lt_of_eq t.isLt (show cfg1.N = 128 from N_1)
  funext j
  obtain ⟨p, q, rfl⟩ : ∃ (p : Fin 512) (q : Fin 512), j = ix2 p q := ⟨j 0, j 1, eq_ix2 (n0 := 512) (n1 := 512) j⟩
  rw [View.read_apply]
  obtain ⟨-, -, -, -, -, -, -, -, e0, e1⟩ := idx1 t
  have hr : 512 * (t.val / 8) + p.val < 8192 := by have := p.isLt; omega
  have ho : 512 * (t.val % 8) + q.val < 4096 := by have := q.isLt; omega
  show k1_pay2 (F := Ideal) _ _ _ _ _ (ix2 p q) = Y1 V c (((cfg1.win 4).blk t).view.emb (ix2 p q))
  rw [Y1_at V c _ ⟨512 * (t.val / 8) + p.val, hr⟩ ⟨512 * (t.val % 8) + q.val, ho⟩
    (by show win1_4.index t (0 : Fin 2) * 512 + 1 * p.val = 512 * (t.val / 8) + p.val; rw [e0]; omega)
    (by show win1_4.index t (1 : Fin 2) * 512 + 1 * q.val = 512 * (t.val % 8) + q.val; rw [e1]; omega)]
  rw [outBlock_apply]
  have hb : (base t).val / 8 = t.val / 8 := by show (t.val - t.val % 8) / 8 = t.val / 8; omega
  have hx0 : ∀ k : Fin 4096, (iblk1 V c 0 (base t) : Vec Ideal S512x4096 .f32) (ix2 p k)
      = V c main_v0 (ix2 (⟨512 * (t.val / 8) + p.val, hr⟩ : Fin 8192) k) := fun k => by
    rw [iblk1_0_apply V c (base t) p k (by rw [hb]; exact hr)]
    congr 2
    exact Fin.ext (by show 512 * ((base t).val / 8) + p.val = 512 * (t.val / 8) + p.val; rw [hb])
  have hs : blockScale (iblk1 V c 0 (base t)) p
      = scaleOf (rowMax fun kk : Fin 4096 => V c main_v0 (ix2 (⟨512 * (t.val / 8) + p.val, hr⟩ : Fin 8192) kk)) := by
    unfold blockScale
    simp only [hx0]
  rw [hs, iblk1_2_apply V c t q ho, iblk1_3_apply V c t q ho]
  simp only [hx0, iblk1_1_apply V c t q _ ho]
  rfl

/-- An index of the array is in point t's block iff each coordinate is in the block's range on its axis. -/
theorem mem_blk1 (t : Fin cfg1.N) (i : S8192x4096.Idx) :
    i ∈ ((cfg1.win 4).blk t).view.set ↔ ∀ a : Fin 2, win1_4.index t a * S512x512.size a ≤ (i a).val ∧ (i a).val < win1_4.index t a * S512x512.size a + S512x512.size a := by
  show i ∈ ((View.whole main_v4).slice (win1_4.rect t)).set ↔ _
  rw [View.set_slice_whole, Rect.mem_set_unit]
  exact Iff.rfl

/-- Every entry of the array lies in the block of the point of its row block and column block. -/
theorem cover1 (i : S8192x4096.Idx) : ∃ t : Fin cfg1.N, (cfg1.win 4).flush t = true ∧ i ∈ ((cfg1.win 4).blk t).view.set := by
  have h0 : (i 0).val < 8192 := (i 0).isLt
  have h1 : (i 1).val < 4096 := (i 1).isLt
  have hN : cfg1.N = 128 := N_1
  let t : Fin cfg1.N := ⟨8 * ((i 0).val / 512) + (i 1).val / 512, by rw [hN]; omega⟩
  refine ⟨t, flush1_4 t, ?_⟩
  rw [mem_blk1]
  obtain ⟨-, -, -, -, -, -, -, -, e0, e1⟩ := idx1 t
  have tv : t.val = 8 * ((i 0).val / 512) + (i 1).val / 512 := rfl
  intro a
  match a with
  | ⟨0, _⟩ => show win1_4.index t (0 : Fin 2) * 512 ≤ (i 0).val ∧ (i 0).val < win1_4.index t (0 : Fin 2) * 512 + 512; rw [e0, tv]; omega
  | ⟨1, _⟩ => show win1_4.index t (1 : Fin 2) * 512 ≤ (i 1).val ∧ (i 1).val < win1_4.index t (1 : Fin 2) * 512 + 512; rw [e1, tv]; omega

/-- The output array after the region is `Y1` of the entry arrays. -/
theorem final1 (c : Dev nD) : (dat1 V c).arrAt 4 cfg1.N = Y1 V c :=
  (dat1 V c).arrAt_eq_of_cover 4 (Y1 V c) (fun t _ => flushed1_eq V c t) (cover1)

end Cert.KernelIdeal.Val

end
-- ==== Proof.Val.Grid0.lean ====
/-
  The row-quantisation region's two output arrays as functions of the weight matrix it is entered with: the codes' array
  holds at (o, k) the code of w[o, k] at channel o's scale, the scales' array that scale. Point t handles rows 256·t …,
  and the 16 points' blocks cover the 4096 rows.
-/
import proofs.«148322_j15324443312229_2_alg».proof.Proof.Val.Pay
import proofs.«148322_j15324443312229_2_alg».proof.Proof.KI.Body
import Idealize.ShloMosaic.Lib.Pipeline.Value

set_option maxRecDepth 16384

noncomputable section

namespace Cert.KernelIdeal.Val

open Cert.KernelIdeal Cert.KernelIdeal.Gen Cert.KernelIdeal.Hand Cert.Quant
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2' : (![0, 0] : Fin 2 → Nat) = fun _ => 0 := funext fun a => by fin_cases a <;> rfl

/-- The scale of channel o of a weight matrix given by coordinates. -/
def chanScale (w : Fin 4096 → Fin 4096 → EReal) (o : Fin 4096) : EReal := scaleOf (rowMax (w o))

/-- The codes' array after the region. -/
def Y0c (c : Dev nD) : Buf (Elt Ideal) ((c : Thread nD τ).loc main_v2_0) := fun i =>
  codeOf (V c main_arg1 (ix2 (⟨(i 0).val, idx2_lt0 i⟩ : Fin 4096) (⟨(i 1).val, idx2_lt1 i⟩ : Fin 4096)))
    (chanScale (fun o k => V c main_arg1 (ix2 o k)) ⟨(i 0).val, idx2_lt0 i⟩)
/-- The scales' array after the region. -/
def Y0s (c : Dev nD) : Buf (Elt Ideal) ((c : Thread nD τ).loc main_v2_1) := fun i =>
  chanScale (fun o k => V c main_arg1 (ix2 o k)) ⟨(i 0).val, idx2_lt0 i⟩

theorem Y0c_at (c : Dev nD) (i : S4096x4096.Idx) (o k : Fin 4096) (ho : (i 0).val = o.val) (hk : (i 1).val = k.val) :
    Y0c V c i = codeOf (V c main_arg1 (ix2 o k)) (chanScale (fun o k => V c main_arg1 (ix2 o k)) o) := by
  unfold Y0c
  have e0 : (⟨(i 0).val, idx2_lt0 i⟩ : Fin 4096) = o := Fin.ext ho
  have e1 : (⟨(i 1).val, idx2_lt1 i⟩ : Fin 4096) = k := Fin.ext hk
  rw [e0, e1]
theorem Y0s_at (c : Dev nD) (i : S4096x1.Idx) (o : Fin 4096) (ho : (i 0).val = o.val) :
    Y0s V c i = chanScale (fun o k => V c main_arg1 (ix2 o k)) o := by
  unfold Y0s
  have e0 : (⟨(i 0).val, idx2_lt0 i⟩ : Fin 4096) = o := Fin.ext ho
  rw [e0]

/-- Every window of the region moves down the rows with the point. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem iblk0_0_apply (c : Dev nD) (t : Fin cfg0.N) (p : Fin 256) (k : Fin 4096) (h : 256 * t.val + p.val < 4096) :
    (iblk0 V c 0 t : Vec Ideal S256x4096 .f32) (ix2 p k) = V c main_arg1 (ix2 (⟨256 * t.val + p.val, h⟩ : Fin 4096) k) := by
  unfold iblk0
  rw [View.read_apply]
  show V c main_arg1 _ = V c main_arg1 _
  congr 1
  funext a
  apply Fin.ext
  obtain ⟨e0, e1, -⟩ := idx0 t
  match a with
  | ⟨0, _⟩ => show win0_0.index t (0 : Fin 2) * 256 + 1 * p.val = 256 * t.val + p.val; rw [e0]; omega
  | ⟨1, _⟩ => show win0_0.index t (1 : Fin 2) * 4096 + 1 * k.val = k.val; rw [e1]; omega

/-- The scale the body computes for row p of its block is channel 256·t + p's. -/
theorem blockScale0 (c : Dev nD) (t : Fin cfg0.N) (p : Fin 256) (h : 256 * t.val + p.val < 4096) :
    k0_pay1 (F := Ideal) (iblk0 V c 0 t) (ix2 p (0 : Fin 1)) = chanScale (fun o k => V c main_arg1 (ix2 o k)) ⟨256 * t.val + p.val, h⟩ := by
  rw [k0_pay1_apply]
  unfold blockRowMax chanScale
  simp only [iblk0_0_apply V c t p _ h]

theorem flushed0_1_eq (c : Dev nD) (t : Fin cfg0.N) :
    (dat0 V c).flushed 1 t = ((cfg0.win 1).blk t).view.read (Elt Ideal) (Y0c V c) := by
  show (cfg0.win 1).cut (grid0.coords t) ((dat0 V c).after 1 t) = _
  rw [after0_1]
  unfold out0_1
  rw [View.canon_unit_zero hz2']
  simp only [View.ld_unit_zero (S := S256x4096) hz2']
  have hN : t.val < 16 := lt_of_lt_of_eq t.isLt (show cfg0.N = 16 from N_0)
  funext j
  obtain ⟨p, k, rfl⟩ : ∃ (p : Fin 256) (k : Fin 4096), j = ix2 p k := ⟨j 0, j 1, eq_ix2 (n0 := 256) (n1 := 4096) j⟩
  rw [View.read_apply]
  obtain ⟨-, -, e0, e1, -⟩ := idx0 t
  have hr : 256 * t.val + p.val < 4096 := by have := p.isLt; omega
  show k0_pay2 (F := Ideal) _ (ix2 p k) = Y0c V c (((cfg0.win 1).blk t).view.emb (ix2 p k))
  rw [Y0c_at V c _ ⟨256 * t.val + p.val, hr⟩ k
    (by show win0_1.index t (0 : Fin 2) * 256 + 1 * p.val = 256 * t.val + p.val; rw [e0]; omega)
    (by show win0_1.index t (1 : Fin 2) * 4096 + 1 * k.val = k.val; rw [e1]; omega)]
  rw [k0_pay2_apply, blockScale0 V c t p hr, iblk0_0_apply V c t p k hr]

theorem flushed0_2_eq (c : Dev nD) (t : Fin cfg0.N) :
    (dat0 V c).flushed 2 t = ((cfg0.win 2).blk t).view.read (Elt Ideal) (Y0s V c) := by
  show (cfg0.win 2).cut (grid0.coords t) ((dat0 V c).after 2 t) = _
  rw [after0_2]
  unfold out0_2
  rw [View.canon_unit_zero hz2']
  simp only [View.ld_unit_zero (S := S256x4096) hz2']
  have hN : t.val < 16 := lt_of_lt_of_eq t.isLt (show cfg0.N = 16 from N_0)
  funext j
  obtain ⟨p, u, rfl⟩ : ∃ (p : Fin 256) (u : Fin 1), j = ix2 p u := ⟨j 0, j 1, eq_ix2 (n0 := 256) (n1 := 1) j⟩
  obtain rfl : u = 0 := Subsingleton.elim _ _
  rw [View.read_apply]
  obtain ⟨-, -, -, -, e0, e1⟩ := idx0 t
  have hr : 256 * t.val + p.val < 4096 := by have := p.isLt; omega
  show k0_pay1 (F := Ideal) _ (ix2 p (0 : Fin 1)) = Y0s V c (((cfg0.win 2).blk t).view.emb (ix2 p (0 : Fin 1)))
  rw [Y0s_at V c _ ⟨256 * t.val + p.val, hr⟩
    (by show win0_2.index t (0 : Fin 2) * 256 + 1 * p.val = 256 * t.val + p.val; rw [e0]; omega)]
  exact blockScale0 V c t p hr

theorem mem_blk0_1 (t : Fin cfg0.N) (i : S4096x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v2_0).slice (win0_1.rect t)).set ↔ _
  rw [View.set_slice_whole, Rect.mem_set_unit]
  exact Iff.rfl
theorem mem_blk0_2 (t : Fin cfg0.N) (i : S4096x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v2_1).slice (win0_2.rect t)).set ↔ _
  rw [View.set_slice_whole, Rect.mem_set_unit]
  exact Iff.rfl

theorem cover0_1 (i : S4096x4096.Idx) : ∃ t : Fin cfg0.N, (cfg0.win 1).flush t = true ∧ i ∈ ((cfg0.win 1).blk t).view.set := by
  have h0 : (i 0).val < 4096 := (i 0).isLt
  have h1 : (i 1).val < 4096 := (i 1).isLt
  have hN : cfg0.N = 16 := N_0
  let t : Fin cfg0.N := ⟨(i 0).val / 256, by rw [hN]; omega⟩
  refine ⟨t, flush0_1 t, ?_⟩
  rw [mem_blk0_1]
  obtain ⟨-, -, e0, e1, -⟩ := idx0 t
  have tv : t.val = (i 0).val / 256 := rfl
  intro a
  match a with
  | ⟨0, _⟩ => show win0_1.index t (0 : Fin 2) * 256 ≤ (i 0).val ∧ (i 0).val < win0_1.index t (0 : Fin 2) * 256 + 256; rw [e0, tv]; omega
  | ⟨1, _⟩ => show win0_1.index t (1 : Fin 2) * 4096 ≤ (i 1).val ∧ (i 1).val < win0_1.index t (1 : Fin 2) * 4096 + 4096; rw [e1]; omega

theorem cover0_2 (i : S4096x1.Idx) : ∃ t : Fin cfg0.N, (cfg0.win 2).flush t = true ∧ i ∈ ((cfg0.win 2).blk t).view.set := by
  have h0 : (i 0).val < 4096 := (i 0).isLt
  have h1 : (i 1).val < 1 := (i 1).isLt
  have hN : cfg0.N = 16 := N_0
  let t : Fin cfg0.N := ⟨(i 0).val / 256, by rw [hN]; omega⟩
  refine ⟨t, flush0_2 t, ?_⟩
  rw [mem_blk0_2]
  obtain ⟨-, -, -, -, e0, e1⟩ := idx0 t
  have tv : t.val = (i 0).val / 256 := rfl
  intro a
  match a with
  | ⟨0, _⟩ => show win0_2.index t (0 : Fin 2) * 256 ≤ (i 0).val ∧ (i 0).val < win0_2.index t (0 : Fin 2) * 256 + 256; rw [e0, tv]; omega
  | ⟨1, _⟩ => show win0_2.index t (1 : Fin 2) * 1 ≤ (i 1).val ∧ (i 1).val < win0_2.index t (1 : Fin 2) * 1 + 1; rw [e1]; omega

theorem final0_1 (c : Dev nD) : (dat0 V c).arrAt 1 cfg0.N = Y0c V c :=
  (dat0 V c).arrAt_eq_of_cover 1 (Y0c V c) (fun t _ => flushed0_1_eq V c t) cover0_1
theorem final0_2 (c : Dev nD) : (dat0 V c).arrAt 2 cfg0.N = Y0s V c :=
  (dat0 V c).arrAt_eq_of_cover 2 (Y0s V c) (fun t _ => flushed0_2_eq V c t) cover0_2

end Cert.KernelIdeal.Val

end
-- ==== Proof.LibFlattenRows.lean ====
/-
  Reusable lemmas: the two leading axes of an array merged into one axis of rows, and split again, read at an entry.

  A program that treats a [A, B, C] array as A·B rows of length C reshapes it to [R, C] (R = A·B) on the way in and
  reshapes its [R, C] and [R, 1] results back to [A, B, C] and [A, B] on the way out.  In row-major order row (b, m)
  is row r = b·B + m, so

      merge  [A, B, C] → [R, C]    at (r, n)     is the operand at (b, m, n),
      split  [R, C] → [A, B, C]    at (b, m, n)  is the operand at (r, n),
      split  [R, 1] → [A, B]       at (b, m)     is the operand at (r, 0),

  whenever r = b·B + m.  Generic in the extents and in the element type.
-/
import Idealize.ShloMosaic.Lib.Pipeline.Value
import Idealize.ShloMosaic.Lib.ValueIdx

noncomputable section

namespace Cert.FlattenRows

open Idealize.ShloMosaic Idealize.ShloMosaic.ValueIdx

variable {α : Type} {A B C R : ℕ}

/-- An [A, B, C] array viewed as [R, C] reads, at (r, n) with r = b·B + m, the operand at (b, m, n). -/
theorem merge_apply (x : (⟨3, ![A, B, C]⟩ : Shape).Idx → α) (h : (⟨3, ![A, B, C]⟩ : Shape).ShapeCasts ⟨2, ![R, C]⟩)
    (b : Fin A) (m : Fin B) (n : Fin C) (r : Fin R) (hr : r.val = b.val * B + m.val) :
    shapeCast ⟨2, ![R, C]⟩ x h (ix2 r n) = x (ix3 b m n) :=
  shapeCast_apply x h _ _ (by
    rw [Shape.rowMajor_val_three, Shape.rowMajor_val_two]
    show (b.val * B + m.val) * C + n.val = r.val * C + n.val
    rw [hr])

/-- An [R, C] array viewed as [A, B, C] reads, at (b, m, n), the operand at (r, n) with r = b·B + m. -/
theorem split_apply (x : (⟨2, ![R, C]⟩ : Shape).Idx → α) (h : (⟨2, ![R, C]⟩ : Shape).ShapeCasts ⟨3, ![A, B, C]⟩)
    (b : Fin A) (m : Fin B) (n : Fin C) (r : Fin R) (hr : r.val = b.val * B + m.val) :
    shapeCast ⟨3, ![A, B, C]⟩ x h (ix3 b m n) = x (ix2 r n) :=
  shapeCast_apply x h _ _ (by
    rw [Shape.rowMajor_val_three, Shape.rowMajor_val_two]
    show r.val * C + n.val = (b.val * B + m.val) * C + n.val
    rw [hr])

/-- An [R, 1] column viewed as [A, B] reads, at (b, m), the operand at (r, 0) with r = b·B + m. -/
theorem splitColumn_apply (x : (⟨2, ![R, 1]⟩ : Shape).Idx → α) (h : (⟨2, ![R, 1]⟩ : Shape).ShapeCasts ⟨2, ![A, B]⟩)
    (b : Fin A) (m : Fin B) (r : Fin R) (hr : r.val = b.val * B + m.val) :
    shapeCast ⟨2, ![A, B]⟩ x h (ix2 b m) = x (ix2 r (0 : Fin 1)) :=
  shapeCast_apply x h _ _ (by
    rw [Shape.rowMajor_val_two, Shape.rowMajor_val_two]
    show r.val * 1 + 0 = b.val * B + m.val
    rw [hr, Nat.mul_one, Nat.add_zero])

end Cert.FlattenRows

end
-- ==== Proof.Val.Chain.lean ====
/-
  The kernel program's result, entry by entry, as a function of the three argument arrays. The boundary contents fold
  back to the launch memory: the result is the last reshape of the product region's output array; that array is the
  function of the region's entry arrays proved before; and those entry arrays are the reshaped x, the reshaped bias, the
  first region's codes' array and the reshape of its scales' array, the first region having been entered with the weight
  matrix as launched.
-/
import proofs.«148322_j15324443312229_2_alg».proof.Proof.KI.Frame
import proofs.«148322_j15324443312229_2_alg».proof.Proof.Val.Array1
import proofs.«148322_j15324443312229_2_alg».proof.Proof.Val.Grid0
import proofs.«148322_j15324443312229_2_alg».proof.Proof.Gen.KernelIdeal.Regions
import proofs.«148322_j15324443312229_2_alg».proof.Proof.LibFlattenRows
import Idealize.ShloMosaic.Lib.StableHlo.Run
import Idealize.ShloMosaic.Lib.ValueLayout

set_option maxRecDepth 16384

noncomputable section

namespace Cert.KernelIdeal.Val

open Cert.KernelIdeal Cert.KernelIdeal.Gen Cert.KernelIdeal.Hand Cert.Quant
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The entry arrays of the two regions -/

/-- The first region is entered with the weight matrix as launched. -/
theorem V1_w (c : Dev nD) : V1 m ρ c main_arg1 = m ((c : Thread nD τ).loc main_arg1) :=
  (StableHlo.after_of_writes_sub hostOps0 (W0 m ρ c) hostOps0_writes (r := main_arg1) (by decide)).trans rfl

/-- x as the second region finds it: the [4, 2048, 4096] argument viewed as [8192, 4096]. -/
theorem V3_x (c : Dev nD) : (V3 m ρ c main_v0 : S8192x4096.Idx → EReal)
    = shapeCast S8192x4096 (m ((c : Thread nD τ).loc main_arg0)) shapeCasts_S4x2048x4096_S8192x4096 := by
  have e3 : W3 m ρ c (Proc.devRef .tc main_v0) = W2 m ρ c (Proc.devRef .tc main_v0) :=
    StableHlo.after_of_writes_sub hostOps1 (W2 m ρ c) hostOps1_writes (r := main_v0) (by decide)
  have e2 : W2 m ρ c (Proc.devRef .tc main_v0) = W1 m ρ c (Proc.devRef .tc main_v0) := W2_of_ne m ρ c main_v0 (by decide)
  show W3 m ρ c (Proc.devRef .tc main_v0) = _
  rw [e3, e2]
  show StableHlo.after hostOps0 (W0 m ρ c) (Proc.devRef .tc main_v0) = _
  after_results
  rfl

/-- The bias as the second region finds it: the [4096] argument viewed as [1, 4096]. -/
theorem V3_b (c : Dev nD) : (V3 m ρ c main_v1 : S1x4096.Idx → EReal)
    = shapeCast S1x4096 (m ((c : Thread nD τ).loc main_arg2)) shapeCasts_S4096_S1x4096 := by
  have e3 : W3 m ρ c (Proc.devRef .tc main_v1) = W2 m ρ c (Proc.devRef .tc main_v1) :=
    StableHlo.after_of_writes_sub hostOps1 (W2 m ρ c) hostOps1_writes (r := main_v1) (by decide)
  have e2 : W2 m ρ c (Proc.devRef .tc main_v1) = W1 m ρ c (Proc.devRef .tc main_v1) := W2_of_ne m ρ c main_v1 (by decide)
  show W3 m ρ c (Proc.devRef .tc main_v1) = _
  rw [e3, e2]
  show StableHlo.after hostOps0 (W0 m ρ c) (Proc.devRef .tc main_v1) = _
  after_results
  rfl

/-- The weight codes as the second region finds them: what the first region left. -/
theorem V3_wc (c : Dev nD) : V3 m ρ c main_v2_0 = Y0c (V1 m ρ) c := by
  have e3 : W3 m ρ c (Proc.devRef .tc main_v2_0) = W2 m ρ c (Proc.devRef .tc main_v2_0) :=
    StableHlo.after_of_writes_sub hostOps1 (W2 m ρ c) hostOps1_writes (r := main_v2_0) (by decide)
  show W3 m ρ c (Proc.devRef .tc main_v2_0) = _
  rw [e3]
  exact (W2_arr m ρ c 1).trans (final0_1 (V1 m ρ) c)

/-- The weight scales as the second region finds them: the first region's [4096, 1] column viewed as [1, 4096]. -/
theorem V3_ws (c : Dev nD) : (V3 m ρ c main_v3 : S1x4096.Idx → EReal)
    = shapeCast S1x4096 (Y0s (V1 m ρ) c) shapeCasts_S4096x1_S1x4096 := by
  show StableHlo.after hostOps1 (W2 m ρ c) (Proc.devRef .tc main_v3) = _
  after_results
  rw [show W2 m ρ c (Proc.devRef .tc main_v2_1) = Y0s (V1 m ρ) c from (W2_arr m ρ c 2).trans (final0_2 (V1 m ρ) c)]
  rfl

/-- The result: the product region's output array viewed as [4, 2048, 4096]. -/
theorem W5_result (c : Dev nD) : (W5 m ρ c (Proc.devRef .tc main_v5) : S4x2048x4096.Idx → EReal)
    = shapeCast S4x2048x4096 (Y1 (V3 m ρ) c) shapeCasts_S8192x4096_S4x2048x4096 := by
  show StableHlo.after hostOps2 (W4 m ρ c) (Proc.devRef .tc main_v5) = _
  after_results
  rw [show W4 m ρ c (Proc.devRef .tc main_v4) = Y1 (V3 m ρ) c from (W4_arr m ρ c 4).trans (final1 (V3 m ρ) c)]
  rfl

end Cert.KernelIdeal.Val

end
-- ==== Proof.Val.Entry.lean ====
/-
  The kernel program's result at entry (bb, s, o) is the specification's kernel arrangement of the three argument arrays:
  token (bb, s) is row 2048·bb + s of the flattened x, its codes and scale are those of that row, channel o's weight codes
  and scale come from the first region, and the bias entry is the argument's.
-/
import proofs.«148322_j15324443312229_2_alg».proof.Proof.Val.Chain

set_option maxRecDepth 16384

noncomputable section

namespace Cert.KernelIdeal.Val

open Cert.KernelIdeal Cert.KernelIdeal.Gen Cert.KernelIdeal.Hand Cert.Quant
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem kernel_entry (c : Dev nD) (bb : Fin 4) (s : Fin 2048) (o : Fin 4096) :
    (W5 m ρ c (Proc.devRef .tc main_v5) : S4x2048x4096.Idx → EReal) (ix3 bb s o)
      = kerForm (fun bb s k => m ((c : Thread nD τ).loc main_arg0) (ix3 bb s k))
          (fun o k => m ((c : Thread nD τ).loc main_arg1) (ix2 o k))
          (fun o => m ((c : Thread nD τ).loc main_arg2) (ix1 o)) bb s o := by
  have hr : bb.val * 2048 + s.val < 8192 := by have := bb.isLt; have := s.isLt; omega
  rw [W5_result]
  rw [Cert.FlattenRows.split_apply (Y1 (V3 m ρ) c) shapeCasts_S8192x4096_S4x2048x4096 bb s o ⟨bb.val * 2048 + s.val, hr⟩ rfl]
  rw [Y1_at (V3 m ρ) c _ ⟨bb.val * 2048 + s.val, hr⟩ o rfl rfl]
  have hx : ∀ k : Fin 4096, V3 m ρ c main_v0 (ix2 (⟨bb.val * 2048 + s.val, hr⟩ : Fin 8192) k)
      = m ((c : Thread nD τ).loc main_arg0) (ix3 bb s k) := fun k => by
    rw [V3_x]
    exact Cert.FlattenRows.merge_apply _ shapeCasts_S4x2048x4096_S8192x4096 bb s k ⟨bb.val * 2048 + s.val, hr⟩ rfl
  have hwc : ∀ k : Fin 4096, V3 m ρ c main_v2_0 (ix2 o k)
      = codeOf (m ((c : Thread nD τ).loc main_arg1) (ix2 o k)) (chanScale (fun o k => m ((c : Thread nD τ).loc main_arg1) (ix2 o k)) o) := fun k => by
    rw [V3_wc, Y0c_at (V1 m ρ) c _ o k rfl rfl, V1_w]
  have hws : V3 m ρ c main_v3 (ix2 (0 : Fin 1) o)
      = chanScale (fun o k => m ((c : Thread nD τ).loc main_arg1) (ix2 o k)) o := by
    rw [V3_ws, Cert.FlattenRows.splitColumn_apply (Y0s (V1 m ρ) c) shapeCasts_S4096x1_S1x4096 (0 : Fin 1) o o (by show o.val = 0 * 4096 + o.val; omega),
      Y0s_at (V1 m ρ) c _ o rfl, V1_w]
  have hb : V3 m ρ c main_v1 (ix2 (0 : Fin 1) o) = m ((c : Thread nD τ).loc main_arg2) (ix1 o) := by
    rw [V3_b]
    exact shapeCast_a_1a_apply _ shapeCasts_S4096_S1x4096 _ _
  unfold rowOut kerForm sx sw
  simp only [hx, hwc, hws, hb]
  rfl

end Cert.KernelIdeal.Val

end
-- ==== Proof.LibLastAxis.lean ====
/-
  Reusable lemmas: reductions along the LAST axis of an [a, b, c] array, read at an entry over the extended reals.

  A sum over the last axis, from the zero accumulator, is at (i, k) the sum over j of the entries (i, k, j); a running
  maximum along it is the fold of max, from the accumulator's value, over those entries. Generic in the extents.
-/
import Idealize.ShloMosaic.Lib.ValueIdx
import Idealize.ShloMosaic.PureOps.Ideal.Laws

noncomputable section

namespace Cert.LastAxis

open Idealize.ShloMosaic Idealize.ShloMosaic.ValueIdx

variable {a b c : ℕ}

/-- The source index of a reduction over the last axis: the pair (i, k) with the coordinate j appended is (i, k, j). -/
theorem lift_last (h : (⟨3, ![a, b, c]⟩ : Shape).Reduces [(2 : Fin 3)] ⟨2, ![a, b]⟩) (i : Fin a) (k : Fin b) (j : Fin c) :
    h.lift (ix2 i k) j = ix3 i k j := by
  funext d
  apply Fin.ext
  show h.liftVal (ix2 i k) j.val d = (ix3 i k j d).val
  unfold Shape.Reduces.liftVal
  match d with
  | ⟨0, _⟩ => rfl
  | ⟨1, _⟩ => rfl
  | ⟨2, _⟩ => rfl

/-- A sum over the last axis of an [a, b, c] array, from the zero accumulator, is at (i, k) the sum over j of the
    entries (i, k, j). -/
theorem lastSum_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (i : Fin a) (k : Fin b) :
    multiReduction .add [(2 : Fin 3)] ⟨2, ![a, b]⟩ src acc h hφ hacc (ix2 i k) = ∑ j : Fin c, src (ix3 i k j) := by
  refine (Ideal.multiReduction_add_single src acc h hφ hacc (ix2 i k)).trans ?_
  show ∑ j : Fin c, src (h.lift (ix2 i k) j) = _
  exact Finset.sum_congr rfl fun j _ => congrArg src (lift_last h i k j)

/-- A running maximum along the last axis of an [a, b, c] array is at (i, k) the fold of max, from the accumulator's
    value, over the entries (i, k, j). -/
theorem lastMax_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (i : Fin a) (k : Fin b) :
    multiReduction .maximumf [(2 : Fin 3)] ⟨2, ![a, b]⟩ src acc h hφ hacc (ix2 i k)
      = (Finset.univ : Finset (Fin c)).fold max (Ideal.ofBits φ acc) (fun j => src (ix3 i k j)) := by
  refine (Ideal.multiReduction_maximumf_single src acc h hφ hacc (ix2 i k)).trans ?_
  have e : (src ∘ h.lift (ix2 i k)) = fun j => src (ix3 i k j) := funext fun j => congrArg src (lift_last h i k j)
  show (Finset.univ : Finset (Fin c)).fold max (Ideal.ofBits φ acc) (src ∘ h.lift (ix2 i k)) = _
  rw [e]
  rfl

end Cert.LastAxis

end
-- ==== Proof.RefSide.lean ====
/-
  The reference read entry by entry. The weight's de-quantised entry (o, k) is its code at channel o's scale times that
  scale, x's de-quantised entry (bb, s, k) its code at token (bb, s)'s scale times that scale; the result entry (bb, s, o)
  is the sum over k of their products plus the bias of o — the specification's reference arrangement. The two host
  running maxima are folds of max from -inf over the reduced axis, i.e. the rows' largest magnitudes.
-/
import proofs.«148322_j15324443312229_2_alg».proof.Proof.Gen.ReferenceIdeal.Read
import proofs.«148322_j15324443312229_2_alg».proof.Proof.Spec
import proofs.«148322_j15324443312229_2_alg».proof.Proof.LibSlabLayout
import proofs.«148322_j15324443312229_2_alg».proof.Proof.LibLastAxis
import Idealize.ShloMosaic.PureOps.Reduce

set_option maxRecDepth 16384

noncomputable section

namespace Cert.ReferenceIdeal.RefValue

open Cert.ReferenceIdeal Cert.ReferenceIdeal.Gen Cert.ReferenceIdeal.Read Cert.Quant
open Idealize.ShloMosaic Idealize.ShloMosaic.ValueIdx

/-! ## The weight side -/

/-- The host's running maximum of |w| along a row is the row's largest magnitude. -/
theorem w_rowmax (x1 : (⟨S4096x4096, .f32⟩ : BufTy).Contents (Elt Ideal)) (o : Fin 4096) :
    val_main_v1 (F := Ideal) x1 (ix1 o) = rowMax (fun k : Fin 4096 => x1 (ix2 o k)) := by
  unfold val_main_v1
  have hR : S4096x4096.Reduces [(1 : Fin 2)] S4096 := by decide
  refine (Host.reduce_eq_fold_single (α := EReal) (max : EReal → EReal → EReal) _ _ reducesTo_S4096x4096_S4096_d1 hR h_S_ (ix1 o)).trans ?_
  have e : (val_main_v0 (F := Ideal) x1 ∘ hR.lift (ix1 o)) = fun k : Fin 4096 => max (x1 (ix2 o k)) (-(x1 (ix2 o k))) :=
    funext fun k => by
      show max (x1 (hR.lift (ix1 o) k)) (-(x1 (hR.lift (ix1 o) k))) = _
      rw [Cert.SlabLayout.lift_row hR o k]
  show (Finset.univ : Finset (Fin 4096)).fold max _ (val_main_v0 (F := Ideal) x1 ∘ hR.lift (ix1 o)) = _
  rw [e]; rfl

/-- Channel o's scale. -/
theorem w_scale (x1 : (⟨S4096x4096, .f32⟩ : BufTy).Contents (Elt Ideal)) (o : Fin 4096) (u : Fin 1) :
    val_main_v6 (F := Ideal) x1 (ix2 o u) = sw (fun o k => x1 (ix2 o k)) o := by
  rw [val_main_v6_apply, val_main_v4_apply, val_main_v2_apply, val_main_v3_apply, val_main_v5_apply,
    val_main_cst_0_apply, val_main_cst_1_apply]
  have ei : idx_main_v2 (ix2 o u) = ix1 o := funext fun a => Fin.ext (by match a with | ⟨0, _⟩ => rfl)
  rw [ei, w_rowmax]
  rfl

/-- The weight's de-quantised entry. -/
theorem w_deq (x1 : (⟨S4096x4096, .f32⟩ : BufTy).Contents (Elt Ideal)) (o k : Fin 4096) :
    val_main_v12 (F := Ideal) x1 (ix2 o k)
      = codeOf (x1 (ix2 o k)) (sw (fun o k => x1 (ix2 o k)) o) * sw (fun o k => x1 (ix2 o k)) o := by
  rw [val_main_v12_apply, val_main_v10_apply, val_main_v11_apply, val_main_call1_v4_apply, val_main_call1_v3_apply,
    val_main_cst_3_apply, val_main_call1_v2_apply, val_main_call1_v1_apply, val_main_call1_v0_apply, val_main_cst_2_apply,
    val_main_v9_apply, val_main_v8_apply, val_main_v7_apply]
  have e7 : idx_main_v7 (ix2 o k) = ix2 o (0 : Fin 1) := funext fun a => Fin.ext (by match a with | ⟨0, _⟩ => rfl | ⟨1, _⟩ => rfl)
  have e11 : idx_main_v11 (ix2 o k) = ix2 o (0 : Fin 1) := funext fun a => Fin.ext (by match a with | ⟨0, _⟩ => rfl | ⟨1, _⟩ => rfl)
  rw [e7, e11, w_scale]
  rfl

/-! ## The activation side -/

theorem x_rowmax (x0 : (⟨S4x2048x4096, .f32⟩ : BufTy).Contents (Elt Ideal)) (bb : Fin 4) (s : Fin 2048) :
    val_main_v14 (F := Ideal) x0 (ix2 bb s) = rowMax (fun k : Fin 4096 => x0 (ix3 bb s k)) := by
  unfold val_main_v14
  have hR : S4x2048x4096.Reduces [(2 : Fin 3)] S4x2048 := by decide
  refine (Host.reduce_eq_fold_single (α := EReal) (max : EReal → EReal → EReal) _ _ reducesTo_S4x2048x4096_S4x2048_d2 hR h_S_ (ix2 bb s)).trans ?_
  have e : (val_main_v13 (F := Ideal) x0 ∘ hR.lift (ix2 bb s)) = fun k : Fin 4096 => max (x0 (ix3 bb s k)) (-(x0 (ix3 bb s k))) :=
    funext fun k => by
      show max (x0 (hR.lift (ix2 bb s) k)) (-(x0 (hR.lift (ix2 bb s) k))) = _
      rw [Cert.LastAxis.lift_last hR bb s k]
  show (Finset.univ : Finset (Fin 4096)).fold max _ (val_main_v13 (F := Ideal) x0 ∘ hR.lift (ix2 bb s)) = _
  rw [e]; rfl

theorem x_scale (x0 : (⟨S4x2048x4096, .f32⟩ : BufTy).Contents (Elt Ideal)) (bb : Fin 4) (s : Fin 2048) (u : Fin 1) :
    val_main_v19 (F := Ideal) x0 (ix3 bb s u) = sx (fun bb s k => x0 (ix3 bb s k)) bb s := by
  rw [val_main_v19_apply, val_main_v17_apply, val_main_v15_apply, val_main_v16_apply, val_main_v18_apply,
    val_main_cst_5_apply, val_main_cst_6_apply]
  have ei : idx_main_v15 (ix3 bb s u) = ix2 bb s := funext fun a => Fin.ext (by match a with | ⟨0, _⟩ => rfl | ⟨1, _⟩ => rfl)
  rw [ei, x_rowmax]
  rfl

theorem x_deq (x0 : (⟨S4x2048x4096, .f32⟩ : BufTy).Contents (Elt Ideal)) (bb : Fin 4) (s : Fin 2048) (k : Fin 4096) :
    val_main_v25 (F := Ideal) x0 (ix3 bb s k)
      = codeOf (x0 (ix3 bb s k)) (sx (fun bb s k => x0 (ix3 bb s k)) bb s) * sx (fun bb s k => x0 (ix3 bb s k)) bb s := by
  rw [val_main_v25_apply, val_main_v23_apply, val_main_v24_apply, val_main_call3_v4_apply, val_main_call3_v3_apply,
    val_main_cst_8_apply, val_main_call3_v2_apply, val_main_call3_v1_apply, val_main_call3_v0_apply, val_main_cst_7_apply,
    val_main_v22_apply, val_main_v21_apply, val_main_v20_apply]
  have e20 : idx_main_v20 (ix3 bb s k) = ix3 bb s (0 : Fin 1) := funext fun a => Fin.ext (by match a with | ⟨0, _⟩ => rfl | ⟨1, _⟩ => rfl | ⟨2, _⟩ => rfl)
  have e24 : idx_main_v24 (ix3 bb s k) = ix3 bb s (0 : Fin 1) := funext fun a => Fin.ext (by match a with | ⟨0, _⟩ => rfl | ⟨1, _⟩ => rfl | ⟨2, _⟩ => rfl)
  rw [e20, e24, x_scale]
  rfl

/-! ## The result -/

theorem ref_entry (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (bb : Fin 4) (s : Fin 2048) (o : Fin 4096) :
    val_main_v29 (F := Ideal) x0 x1 x2 (ix3 bb s o)
      = refForm (fun bb s k => x0 (ix3 bb s k)) (fun o k => x1 (ix2 o k)) (fun o => x2 (ix1 o)) bb s o := by
  rw [val_main_v29_apply, val_main_v26_apply, val_main_v28_apply, val_main_v27_apply]
  have el : ∀ k : Fin 4096, lidx_main_v26 (ix3 bb s o) k = ix3 bb s k := fun k =>
    funext fun a => Fin.ext (by match a with | ⟨0, _⟩ => rfl | ⟨1, _⟩ => rfl | ⟨2, _⟩ => rfl)
  have er : ∀ k : Fin 4096, ridx_main_v26 (ix3 bb s o) k = ix2 o k := fun k =>
    funext fun a => Fin.ext (by match a with | ⟨0, _⟩ => rfl | ⟨1, _⟩ => rfl)
  have eb : idx_main_v27 (idx_main_v28 (ix3 bb s o)) = ix1 o := funext fun a => Fin.ext (by match a with | ⟨0, _⟩ => rfl)
  simp only [el, er, x_deq, w_deq]
  rw [eb]
  rfl

end Cert.ReferenceIdeal.RefValue

end
-- ==== Proof.LibRealEntries.lean ====
/-
  Reusable lemmas: arrays over the extended reals all of whose entries are real numbers.

  An extended real is either a real number or one of the two infinities.  Sums and products of real numbers are real,
  the cosine and the sine of a real number are real, a quotient of a real number by a non-zero real number is real,
  and the 32-bit float patterns whose exponent field is not all ones denote real numbers.  The operations that only
  re-index an array (a broadcast along named axes, a reshape, a transpose, a concatenation) read each result entry
  from an operand entry, so they carry "every entry is real" from the operands to the result; so do the entrywise
  product, negation, cosine, sine and quotient, and a matrix product (a finite sum of products).

  The last part is the one algebraic law the file is for: for matrices with real entries the product is associative,
  entry by entry, as an identity between extended reals — (A·B)·C = A·(B·C).  Over the extended reals this needs the
  entries to be real: with infinities a product does not distribute over a sum.
-/
import Idealize.ShloMosaic.PureOps.Ideal.Laws
import Idealize.ShloMosaic.Lib.ValueIdx

noncomputable section

namespace Cert.RealEntries

open Idealize.ShloMosaic Idealize.ShloMosaic.ValueIdx

/-! ## Real numbers among the extended reals -/

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

theorem IsR.cos {x : EReal} (hx : IsR x) : IsR (Ideal.cos x) := by
  obtain ⟨a, rfl⟩ := hx; exact ⟨Real.cos a, rfl⟩

theorem IsR.sin {x : EReal} (hx : IsR x) : IsR (Ideal.sin x) := by
  obtain ⟨a, rfl⟩ := hx; exact ⟨Real.sin a, rfl⟩

/-- A real number divided by a non-zero real number. -/
theorem IsR.div {x y : EReal} (hx : IsR x) {b : ℝ} (hy : y = (b : EReal)) (hb : b ≠ 0) : IsR (Ideal.div x y) := by
  subst hy
  rw [Ideal.div_coe hb]
  exact hx.mul (IsR.coe _)

/-- A 32-bit float pattern whose exponent field is not all ones denotes a real number. -/
theorem isR_ofBits_f32 (w : BitVec 32) (h : (w.extractLsb' 23 8).toNat ≠ 255) : IsR (Ideal.ofBits .f32 w) := by
  show IsR (Ideal.ieee 8 23 w)
  unfold Ideal.ieee
  dsimp only
  rw [if_neg (by norm_num; exact h)]
  split_ifs <;> exact ⟨_, rfl⟩

/-- The pattern of 2.0 denotes the real number 2. -/
theorem ofBits_two : Ideal.ofBits .f32 0x40000000#32 = ((2 : ℝ) : EReal) := by
  simp [Ideal.ofBits, Ideal.ieee, -EReal.coe_mul]; norm_num

/-! ## Arrays of real numbers -/

variable {s t : Shape} {φ : FTy}

/-- Every entry of the array is a real number. -/
def AllReal (x : FVec Ideal s φ) : Prop := ∀ i, IsR (x i)

/-- A broadcast along named axes reads every entry from the operand. -/
theorem AllReal.of_broadcastInDim {x : FVec Ideal s φ} (hx : AllReal x) (dims : Fin s.rank → Fin t.rank)
    (h : s.BroadcastsInDim t dims) : AllReal (φ := φ) (broadcastInDim t dims h x) := by
  intro j; unfold Idealize.ShloMosaic.broadcastInDim; exact hx _

/-- A reshape reads every entry from the operand. -/
theorem AllReal.of_shapeCast {x : FVec Ideal s φ} (hx : AllReal x) (h : s.ShapeCasts t) :
    AllReal (φ := φ) (shapeCast t x h) := by
  intro j; unfold Idealize.ShloMosaic.shapeCast; exact hx _

/-- A transpose reads every entry from the operand. -/
theorem AllReal.of_transpose {x : FVec Ideal s φ} (hx : AllReal x) (perm : List (Fin s.rank)) (h : s.Transposes perm t) :
    AllReal (φ := φ) (transpose t perm x h) := by
  intro j; unfold Idealize.ShloMosaic.transpose; exact hx _

/-- A concatenation reads every entry from one of the pieces. -/
theorem AllReal.of_concatenate (a : Fin t.rank) (xs : List ((s : Shape) × (s.Idx → EReal)))
    (h : Shape.Concatenates (xs.map (·.1)) t a) (hxs : ∀ p ∈ xs, ∀ i, IsR (p.2 i)) :
    AllReal (φ := φ) (concatenate t a xs h) := by
  intro j; unfold Idealize.ShloMosaic.concatenate; dsimp only
  exact hxs _ (List.getElem_mem _) _

/-- A concatenation of two pieces. -/
theorem AllReal.of_concatenate₂ {s₁ s₂ : Shape} (a : Fin t.rank) {x : FVec Ideal s₁ φ} {y : FVec Ideal s₂ φ}
    (hx : AllReal x) (hy : AllReal y) (h : Shape.Concatenates [s₁, s₂] t a) :
    AllReal (φ := φ) (concatenate t a [⟨s₁, x⟩, ⟨s₂, y⟩] h) :=
  AllReal.of_concatenate a [⟨s₁, x⟩, ⟨s₂, y⟩] h fun p hp => by
    simp only [List.mem_cons, List.not_mem_nil, or_false] at hp
    rcases hp with rfl | rfl
    · exact hx
    · exact hy

/-- The entrywise product. -/
theorem AllReal.of_mulf {x y : FVec Ideal s φ} (hx : AllReal x) (hy : AllReal y) : AllReal (mulf x y) :=
  fun i => (hx i).mul (hy i)

/-- The entrywise negation on the host. -/
theorem AllReal.of_hostNegf {x : FVec Ideal s φ} (hx : AllReal x) : AllReal (Host.negf x) :=
  fun i => (hx i).neg

/-- The entrywise cosine on the host. -/
theorem AllReal.of_hostCos {x : FVec Ideal s φ} (hx : AllReal x) : AllReal (Host.cos x) :=
  fun i => (hx i).cos

/-- The entrywise sine on the host. -/
theorem AllReal.of_hostSin {x : FVec Ideal s φ} (hx : AllReal x) : AllReal (Host.sin x) :=
  fun i => (hx i).sin

/-- The entrywise quotient on the host by the splat of the float 2.0. -/
theorem AllReal.of_hostDivTwo {x : FVec Ideal s .f32} (hx : AllReal x) :
    AllReal (Host.divf x (constant (F := Ideal) s .f32 0x40000000#32)) :=
  fun i => (hx i).div ofBits_two (by norm_num)

/-- A table of 32-bit float patterns none of whose exponent fields is all ones. -/
theorem AllReal.ofTable (f : s.Idx → BitVec 32) (h : ∀ i, ((f i).extractLsb' 23 8).toNat ≠ 255) :
    AllReal (φ := .f32) (fun i => (FloatOps.ofBits (F := Ideal) .f32 (f i) : Ideal .f32)) :=
  fun i => isR_ofBits_f32 _ (h i)

/-! ## Matrices of real numbers -/

variable {M K N L : Nat}

/-- A matrix product of two matrices of real numbers, read at each entry as the sum over the inner index, has real
    entries. -/
theorem allReal_of_sum {x : FVec Ideal ⟨2, ![M, N]⟩ φ} (a : Fin M → Fin K → EReal) (b : Fin K → Fin N → EReal)
    (ha : ∀ p k, IsR (a p k)) (hb : ∀ k q, IsR (b k q))
    (hx : ∀ p q, x (ix2 p q) = ∑ k : Fin K, a p k * b k q) : AllReal x := by
  intro j
  obtain ⟨p, q, rfl⟩ : ∃ (p : Fin M) (q : Fin N), j = ix2 p q := ⟨j 0, j 1, eq_ix2 j⟩
  rw [hx]
  exact IsR.sum _ _ fun k _ => (ha _ k).mul (hb k _)

/-- The coercion from the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ASSOCIATIVITY of the product of matrices of real numbers, entry by entry, over the extended reals:
    Σ_j (Σ_i A[p,i]·B[i,j])·C[j,q] = Σ_i A[p,i]·(Σ_j B[i,j]·C[j,q]). -/
theorem matmul_assoc (A : Fin M → Fin K → EReal) (B : Fin K → Fin L → EReal) (C : Fin L → Fin N → EReal)
    (hA : ∀ p i, IsR (A p i)) (hB : ∀ i j, IsR (B i j)) (hC : ∀ j q, IsR (C j q)) (p : Fin M) (q : Fin N) :
    ∑ j : Fin L, (∑ i : Fin K, A p i * B i j) * C j q = ∑ i : Fin K, A p i * ∑ j : Fin L, B i j * C j q := by
  choose a ha using hA
  choose b hb using hB
  choose c hc using hC
  simp only [ha, hb, hc, ← EReal.coe_mul, ← coe_sum]
  rw [EReal.coe_eq_coe_iff]
  simp only [Finset.sum_mul, Finset.mul_sum]
  rw [Finset.sum_comm]
  exact Finset.sum_congr rfl fun i _ => Finset.sum_congr rfl fun j _ => mul_assoc _ _ _

end Cert.RealEntries

end
-- ==== Proof.LibRealBounds.lean ====
/-
  Real numbers inside the extended reals: facts a quantisation kernel's algebra needs.

  An extended real that is neither infinity is a real number, so anything squeezed between two real numbers is one; the
  maximum of two real numbers is one; a value clamped into [lo, hi] with real ends is one whatever was clamped; a running
  maximum from the bottom element over a non-empty family of real numbers is one. And for real numbers a sum of products
  times a product of two factors distributes: (Σ aₖ·cₖ)·(S·T) = Σ (aₖ·S)·(cₖ·T) — the step that moves two scales out of (or
  into) a contraction, false at the infinities.
-/
import proofs.«148322_j15324443312229_2_alg».proof.Proof.LibRealEntries

noncomputable section

namespace Cert.RealBounds

open Cert.RealEntries

/-- Neither infinity: a real number. -/
theorem isR_of_ne {z : EReal} (h1 : z ≠ ⊥) (h2 : z ≠ ⊤) : IsR z := by
  induction z using EReal.rec with
  | bot => exact absurd rfl h1
  | coe r => exact ⟨r, rfl⟩
  | top => exact absurd rfl h2

theorem isR_ne_bot {z : EReal} (h : IsR z) : z ≠ ⊥ := by obtain ⟨r, rfl⟩ := h; exact EReal.coe_ne_bot r
theorem isR_ne_top {z : EReal} (h : IsR z) : z ≠ ⊤ := by obtain ⟨r, rfl⟩ := h; exact EReal.coe_ne_top r

/-- Between two real numbers: a real number. -/
theorem isR_of_between {lo hi z : EReal} (hlo : IsR lo) (hhi : IsR hi) (h1 : lo ≤ z) (h2 : z ≤ hi) : IsR z :=
  isR_of_ne (fun e => isR_ne_bot hlo (le_bot_iff.mp (e ▸ h1))) (fun e => isR_ne_top hhi (top_le_iff.mp (e ▸ h2)))

theorem isR_max {x y : EReal} (hx : IsR x) (hy : IsR y) : IsR (max x y) := by
  rcases le_total x y with h | h
  · rw [max_eq_right h]; exact hy
  · rw [max_eq_left h]; exact hx

/-- A clamp with real ends is a real number, whatever is clamped (an infinity too). -/
theorem isR_clamp {lo hi : EReal} (hlo : IsR lo) (hhi : IsR hi) (y : EReal) : IsR (min hi (max lo y)) := by
  rcases le_total hi (max lo y) with h | h
  · rw [min_eq_left h]; exact hhi
  · rw [min_eq_right h]; exact isR_of_between hlo hhi (le_max_left _ _) h

/-- A running maximum from the bottom element over a non-empty family of real numbers is a real number. -/
theorem isR_foldMax {n : ℕ} (hn : 0 < n) (g : Fin n → EReal) (hg : ∀ k, IsR (g k)) :
    IsR ((Finset.univ : Finset (Fin n)).fold max ⊥ g) := by
  have hlo : g ⟨0, hn⟩ ≤ (Finset.univ : Finset (Fin n)).fold max ⊥ g :=
    (Finset.le_fold_max _).mpr (Or.inr ⟨_, Finset.mem_univ _, le_rfl⟩)
  refine isR_of_ne (fun e => isR_ne_bot (hg ⟨0, hn⟩) (le_bot_iff.mp (e ▸ hlo))) (ne_of_lt ?_)
  exact (Finset.fold_max_lt _).mpr ⟨bot_lt_top, fun k _ => lt_top_iff_ne_top.mpr (isR_ne_top (hg k))⟩

/-- Distributivity over real numbers: a sum of products times a product of two factors. -/
theorem sum_mul_scales {n : ℕ} (a c : Fin n → EReal) (S T : EReal) (ha : ∀ k, IsR (a k)) (hc : ∀ k, IsR (c k))
    (hS : IsR S) (hT : IsR T) : (∑ k, a k * c k) * (S * T) = ∑ k, (a k * S) * (c k * T) := by
  obtain ⟨S', rfl⟩ := hS
  obtain ⟨T', rfl⟩ := hT
  choose a' ha' using ha
  choose c' hc' using hc
  obtain rfl : a = fun k => ((a' k : ℝ) : EReal) := funext ha'
  obtain rfl : c = fun k => ((c' k : ℝ) : EReal) := funext hc'
  simp only [← EReal.coe_mul, ← coe_sum]
  congr 1
  rw [Finset.sum_mul]
  exact Finset.sum_congr rfl fun k _ => by ring

end Cert.RealBounds

end
-- ==== Proof.SpecLaw.lean ====
/-
  The two arrangements agree when every entry of x and of w is a real number.

  A code is always a real number (it is clamped between the real numbers -128 and 127); a row of real numbers has a real
  largest magnitude, hence a real scale (a quotient by 127 and a maximum with a real number). So both sums run over products
  of real numbers, where (Σ aₖ·cₖ)·(S·T) = Σ (aₖ·S)·(cₖ·T) is the distributive law — which the extended reals lack at the
  infinities, and this is the only place the inputs' finiteness is needed.
-/
import proofs.«148322_j15324443312229_2_alg».proof.Proof.Spec
import proofs.«148322_j15324443312229_2_alg».proof.Proof.SpecMax
import proofs.«148322_j15324443312229_2_alg».proof.Proof.LibRealBounds

noncomputable section

namespace Cert.Quant

open Idealize.ShloMosaic Cert.RealEntries Cert.RealBounds

theorem c127_eq : c127 = ((127 : ℝ) : EReal) := by
  simp [c127, Ideal.ofBits, Ideal.ieee, -EReal.coe_mul]; norm_num

theorem isR_c127 : IsR c127 := isR_ofBits_f32 _ (by decide)
theorem isR_cm128 : IsR cm128 := isR_ofBits_f32 _ (by decide)
theorem isR_ceps : IsR ceps := isR_ofBits_f32 _ (by decide)

/-- A code is a real number, whatever is clamped. -/
theorem isR_codeOf (v s : EReal) : IsR (codeOf v s) := isR_clamp isR_cm128 isR_c127 _

/-- A non-empty row of real numbers has a real largest magnitude. -/
theorem isR_rowMax {n : ℕ} (hn : 0 < n) (f : Fin n → EReal) (hf : ∀ k, IsR (f k)) : IsR (rowMax f) := by
  unfold rowMax
  rw [ninf_eq_bot]
  exact isR_foldMax hn _ fun k => isR_max (hf k) (IsR.neg (hf k))

theorem isR_scaleOf {mx : EReal} (h : IsR mx) : IsR (scaleOf mx) :=
  isR_max (IsR.div h c127_eq (by norm_num)) isR_ceps

/-- The kernel's arrangement is the reference's, for real x and w. -/
theorem ker_eq_ref (x : Fin 4 → Fin 2048 → Fin 4096 → EReal) (w : Fin 4096 → Fin 4096 → EReal) (b : Fin 4096 → EReal)
    (hx : ∀ bb s k, IsR (x bb s k)) (hw : ∀ o k, IsR (w o k)) (bb : Fin 4) (s : Fin 2048) (o : Fin 4096) :
    kerForm x w b bb s o = refForm x w b bb s o := by
  unfold kerForm refForm
  congr 1
  exact sum_mul_scales _ _ _ _ (fun k => isR_codeOf _ _) (fun k => isR_codeOf _ _)
    (isR_scaleOf (isR_rowMax (by norm_num) _ (hx bb s))) (isR_scaleOf (isR_rowMax (by norm_num) _ (hw o)))

end Cert.Quant

end
-- ==== Proof.LibFiniteInputs.lean ====
/-
  A reusable lemma: what the precondition "every entry is finite" says over the extended reals.

  The precondition is written as all(|x| < +∞): the entrywise absolute value compared, by the ordered "less than", with
  the splat of the float pattern of +∞, and the comparisons reduced by "and" over every axis from the constant true.
  Over the extended reals the pattern of +∞ denotes ⊤, the absolute value of x is max x (−x), and max x (−x) < ⊤ holds
  exactly when x is neither ⊤ nor ⊥: so the reduction being true says that every entry is a real number.
-/
import proofs.«148322_j15324443312229_2_alg».proof.Proof.LibRealEntries
import Idealize.ShloMosaic.Lib.ReduceAll

noncomputable section

namespace Cert.RealEntries

open Idealize.ShloMosaic

/-- The float pattern of +∞ denotes ⊤. -/
theorem ofBits_inf : Ideal.ofBits .f32 0x7F800000#32 = ⊤ := by
  simp [Ideal.ofBits, Ideal.ieee]

/-- |x| < ⊤ says that x is a real number. -/
theorem isR_of_abs_lt_top (x : EReal) (h : Ideal.cmp .olt (max x (-x)) ⊤ = 1#1) : IsR x := by
  have h' : max x (-x) < ⊤ := by
    have h1 : Ideal.cmp .olt (max x (-x)) ⊤ = BitVec.ofBool (decide (max x (-x) < ⊤)) := rfl
    rw [h1] at h
    by_contra hn
    rw [decide_eq_false hn] at h
    exact absurd h (by decide)
  induction x using EReal.rec with
  | bot => simp at h'
  | coe r => exact ⟨r, rfl⟩
  | top => simp at h'

/-- all(|x| < +∞) reduced over every axis is true: every entry of x is a real number. -/
theorem allReal_of_all_finite {s t u : Shape} {axes : List (Fin s.rank)} [Subsingleton t.Idx] (x : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf x) (broadcastInDim s ![] hb (constant (F := Ideal) ⟨0, ![]⟩ .f32 0x7F800000#32))) init h hu j = 1#1) :
    AllReal x := fun i => by
  have hi := Host.reduce_andi_all _ init h hu j e i
  refine isR_of_abs_lt_top (x i) ?_
  rw [← ofBits_inf]
  exact hi

end Cert.RealEntries

end
-- ==== Proof.Finite.lean ====
/-
  The precondition decoded: "all(|x| < +inf) and all(|w| < +inf) and all(|b| < +inf)" being true says that every entry of
  each of the three arrays is a real number.
-/
import proofs.«148322_j15324443312229_2_alg».proof.Pre_finite_inputs
import proofs.«148322_j15324443312229_2_alg».proof.Proof.LibFiniteInputs
import Idealize.ShloMosaic.Lib.Affine
import Idealize.ShloMosaic.Lib.ReduceAll
import Idealize.ShloMosaic.Lib.ValueIdx

noncomputable section

namespace Cert.Finite

open Idealize.ShloMosaic Cert.RealEntries Cert.Pre_finite_inputs

theorem allReal_of_pre [Cert.Pre_finite_inputs.Facts] (a0 : FVec Ideal S4x2048x4096 .f32) (a1 : FVec Ideal S4096x4096 .f32)
    (a2 : FVec Ideal S4096 .f32) (h : Cert.Pre_finite_inputs.fn (F := Ideal) a0 a1 a2 = fun _ => 1#1) :
    AllReal a0 ∧ AllReal a1 ∧ AllReal a2 := by
  have h0 := congrFun h ValueIdx.ix0
  dsimp only [Cert.Pre_finite_inputs.fn] at h0
  haveI : Subsingleton S_.Idx := ⟨fun a b => funext fun d => d.elim0⟩
  obtain ⟨h01, h2⟩ := IntOp.andi_eq_one.mp h0
  obtain ⟨h0', h1'⟩ := IntOp.andi_eq_one.mp h01
  exact ⟨allReal_of_all_finite a0 _ _ _ _ _ h0', allReal_of_all_finite a1 _ _ _ _ _ h1', allReal_of_all_finite a2 _ _ _ _ _ h2⟩

end Cert.Finite

end
-- ==== Proof.lean ====
/-
  The certificate of the fused fake-quantised linear layer.

  The kernel program quantises the weight matrix row by row in a first Pallas region (integer codes and one scale per
  output channel), then, in a second region on a 16 × 8 grid, quantises each 512-row block of x once — at the first of
  its eight column blocks, into scratch buffers carried along the row block — multiplies codes on the matrix unit and
  applies the two scales and the bias in the epilogue. The reference de-quantises both operands first and contracts them
  with one einsum. Over the extended reals both results are, entry (b, s, o),

      (Σₖ code(x[b,s,k]) · code(w[o,k])) · (scale_x[b,s] · scale_w[o]) + bias[o]      (kernel)
      Σₖ (code(x[b,s,k]) · scale_x[b,s]) · (code(w[o,k]) · scale_w[o]) + bias[o]      (reference)

  with the same codes and scales on both sides; they agree by the distributive law, which holds because codes are clamped
  to [-128, 127] and, the inputs being finite, every scale is a real number.

  The frames of the two kernel programs are one run of the whole program (two regions among three host stretches), written
  once for any float instance; the reference's frame is its generated run. The ideal pass rewrote nothing, so the kernel's
  idealization is its own text read over the extended reals.
-/
import proofs.«148322_j15324443312229_2_alg».proof.Defs
import proofs.«148322_j15324443312229_2_alg».proof.Proof.Gen.Kernel
import proofs.«148322_j15324443312229_2_alg».proof.Proof.Gen.KernelIdeal
import proofs.«148322_j15324443312229_2_alg».proof.Proof.Gen.ReferenceIdeal
import proofs.«148322_j15324443312229_2_alg».proof.Proof.Gen.Pre_finite_inputs
import proofs.«148322_j15324443312229_2_alg».proof.Proof.Gen.ReferenceIdeal.Run
import proofs.«148322_j15324443312229_2_alg».proof.Proof.K.Args
import proofs.«148322_j15324443312229_2_alg».proof.Proof.KI.Args
import proofs.«148322_j15324443312229_2_alg».proof.Proof.Val.Entry
import proofs.«148322_j15324443312229_2_alg».proof.Proof.RefSide
import proofs.«148322_j15324443312229_2_alg».proof.Proof.SpecLaw
import proofs.«148322_j15324443312229_2_alg».proof.Proof.Finite

noncomputable section

namespace Cert.Proof

open Idealize.ShloMosaic Idealize.ShloMosaic.TcCoe Idealize.SL.Sem Idealize.ShloMosaic.ValueIdx

/-- The word-level kernel program runs and leaves its arguments as launched. -/
theorem frame_k [Cert.Kernel.Facts] [Cert.Pre_finite_inputs.Facts] : Cert.frame_Kernel :=
  fun m ρ _ => Cert.Kernel.Hand.frame (F := Bits) m ρ

/-- So does its reading over the extended reals. -/
theorem frame_ki [Cert.KernelIdeal.Facts] [Cert.Pre_finite_inputs.Facts] : Cert.frame_KernelIdeal :=
  fun m ρ _ => Cert.KernelIdeal.Hand.frame (F := Ideal) m ρ

/-- The reference runs and leaves its arguments as launched: its run, the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the same result: entry by entry the kernel's arrangement of the argument arrays and the
    reference's, equal for finite inputs. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Hand.W5 (F := Ideal) m ρ c (Proc.devRef .tc Cert.KernelIdeal.main_v5),
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Read.val_main_v29_eq _ _ _).trans ?_
  obtain ⟨hx, hw, -⟩ := Cert.Finite.allReal_of_pre _ _ _ (hpre c)
  funext i
  obtain ⟨bb, s, o, rfl⟩ : ∃ (bb : Fin 4) (s : Fin 2048) (o : Fin 4096), i = ix3 bb s o := ⟨i 0, i 1, i 2, eq_ix3 i⟩
  rw [Cert.ReferenceIdeal.RefValue.ref_entry]
  refine Eq.trans ?_ (Cert.KernelIdeal.Val.kernel_entry m ρ c bb s o).symm
  exact (Cert.Quant.ker_eq_ref _ _ _ (fun bb s k => hx _) (fun o k => hw _) bb s o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
